-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128000x256 : Shape := ⟨2, ![128000, 256]⟩
abbrev S2x384000 : Shape := ⟨2, ![2, 384000]⟩
abbrev S128000 : Shape := ⟨1, ![128000]⟩
abbrev S4096x2 : Shape := ⟨2, ![4096, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S128000x256 : S_.BroadcastsInDim S128000x256 (![] : Fin 0 → Fin S128000x256.rank)
  reducesTo_S128000x256_S_d0_1 : S128000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S128 .f32) (main_arg8 : FVec F S256x1 .f32) (main_arg9 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x1 .f32 := Host.absf main_arg8
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S128000x256 .f32) (main_arg1 : IVec S2x384000 32) (main_arg2 : IVec S128000 32) (main_arg3 : IVec S4096x2 32) (main_arg4 : FVec F S256x256 .f32) (main_arg5 : FVec F S256 .f32) (main_arg6 : FVec F S256x128 .f32) (main_arg7 : FVec F S128 .f32) (main_arg8 : FVec F S256x1 .f32) (main_arg9 : FVec F S1 .f32) : IVec S_ 1 :=
  let main_v0 : FVec F S128000x256 .f32 := Host.absf main_arg0
  let main_cst : FVec F S_ .f32 := constant S_ .f32 0x7F800000#32
  let main_v1 : FVec F S128000x256 .f32 := broadcastInDim S128000x256 ![] bcast_S_S128000x256 main_cst
  let main_v2 : IVec S128000x256 1 := cmpf .olt main_v0 main_v1
  let main_c : IVec S_ 1 := constantI S_ 1 1#1
  let main_v3 : IVec S_ 1 := (fun x v => Host.reduce IntOp.andi x v reducesTo_S128000x256_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_v13 main_v16
-- ==== Kernel.lean ====
abbrev S128000x256 : Shape := ⟨2, ![128000, 256]⟩
abbrev S2x384000 : Shape := ⟨2, ![2, 384000]⟩
abbrev S128000 : Shape := ⟨1, ![128000]⟩
abbrev S4096x2 : Shape := ⟨2, ![4096, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S1x384000 : Shape := ⟨2, ![1, 384000]⟩
abbrev S384000 : Shape := ⟨1, ![384000]⟩
abbrev S512000 : Shape := ⟨1, ![512000]⟩
abbrev S_ : Shape := ⟨0, ![]⟩
abbrev S512000x1 : Shape := ⟨2, ![512000, 1]⟩
abbrev S4000x256 : Shape := ⟨2, ![4000, 256]⟩
abbrev S512000x256 : Shape := ⟨2, ![512000, 256]⟩
abbrev S1x256 : Shape := ⟨2, ![1, 256]⟩
abbrev S128000x128 : Shape := ⟨2, ![128000, 128]⟩
abbrev S4000x128 : Shape := ⟨2, ![4000, 128]⟩
abbrev S512000x128 : Shape := ⟨2, ![512000, 128]⟩
abbrev S1x128 : Shape := ⟨2, ![1, 128]⟩
abbrev S1000x128 : Shape := ⟨2, ![1000, 128]⟩
abbrev S128000x1 : Shape := ⟨2, ![128000, 1]⟩
abbrev S1000 : Shape := ⟨1, ![1000]⟩
abbrev S1000x1 : Shape := ⟨2, ![1000, 1]⟩
abbrev S4096x1 : Shape := ⟨2, ![4096, 1]⟩
abbrev S4096 : Shape := ⟨1, ![4096]⟩
abbrev S4096x128 : Shape := ⟨2, ![4096, 128]⟩
abbrev S4096x256 : Shape := ⟨2, ![4096, 256]⟩
abbrev S1x1 : Shape := ⟨2, ![1, 1]⟩

abbrev nBuf : Space → Nat
  | .hbm => 147
  | .vmem => 10
  | .smem => 0
  | _ => 0

abbrev hbmTy0_0 (i : Nat) : BufTy := match i % 128 with
  | 0 => ⟨S128000x256, .f32⟩
  | 1 => ⟨S2x384000, .i32⟩
  | 2 => ⟨S128000, .i32⟩
  | 3 => ⟨S4096x2, .i32⟩
  | 4 => ⟨S256x256, .f32⟩
  | 5 => ⟨S256, .f32⟩
  | 6 => ⟨S256x128, .f32⟩
  | 7 => ⟨S128, .f32⟩
  | 8 => ⟨S256x1, .f32⟩
  | 9 => ⟨S1, .f32⟩
  | 10 => ⟨S128000, .i32⟩
  | 11 => ⟨S1x384000, .i32⟩
  | 12 => ⟨S384000, .i32⟩
  | 13 => ⟨S512000, .i32⟩
  | 14 => ⟨S1x384000, .i32⟩
  | 15 => ⟨S384000, .i32⟩
  | 16 => ⟨S512000, .i32⟩
  | 17 => ⟨S_, .f32⟩
  | 18 => ⟨S512000, .f32⟩
  | 19 => ⟨S_, .f32⟩
  | 20 => ⟨S128000, .f32⟩
  | 21 => ⟨S512000x1, .i32⟩
  | 22 => ⟨S128000, .f32⟩
  | 23 => ⟨S_, .f32⟩
  | 24 => ⟨S128000, .f32⟩
  | 25 => ⟨S128000, .i1⟩
  | 26 => ⟨S_, .f32⟩
  | 27 => ⟨S128000, .f32⟩
  | 28 => ⟨S128000, .f32⟩
  | 29 => ⟨S128000, .f32⟩
  | 30 => ⟨S_, .f32⟩
  | 31 => ⟨S_, .f32⟩
  | 32 => ⟨S128000, .f32⟩
  | 33 => ⟨S128000, .f32⟩
  | 34 => ⟨S_, .i32⟩
  | 35 => ⟨S512000, .i32⟩
  | 36 => ⟨S512000, .i1⟩
  | 37 => ⟨S_, .i32⟩
  | 38 => ⟨S512000, .i32⟩
  | 39 => ⟨S512000, .i32⟩
  | 40 => ⟨S512000, .i32⟩
  | 41 => ⟨S512000x1, .i32⟩
  | 42 => ⟨S512000, .f32⟩
  | 43 => ⟨S_, .i32⟩
  | 44 => ⟨S512000, .i32⟩
  | 45 => ⟨S512000, .i1⟩
  | 46 => ⟨S_, .i32⟩
  | 47 => ⟨S512000, .i32⟩
  | 48 => ⟨S512000, .i32⟩
  | 49 => ⟨S512000, .i32⟩
  | 50 => ⟨S512000x1, .i32⟩
  | 51 => ⟨S512000, .f32⟩
  | 52 => ⟨S512000, .f32⟩
  | 53 => ⟨S128000x256, .f32⟩
  | 54 => ⟨S_, .i32⟩
  | 55 => ⟨S512000, .i32⟩
  | 56 => ⟨S512000, .i1⟩
  | 57 => ⟨S_, .i32⟩
  | 58 => ⟨S512000, .i32⟩
  | 59 => ⟨S512000, .i32⟩
  | 60 => ⟨S512000, .i32⟩
  | 61 => ⟨S512000x1, .i32⟩
  | 62 => ⟨S512000x256, .f32⟩
  | 63 => ⟨S512000x1, .f32⟩
  | 64 => ⟨S512000x256, .f32⟩
  | 65 => ⟨S512000x256, .f32⟩
  | 66 => ⟨S_, .f32⟩
  | 67 => ⟨S128000x256, .f32⟩
  | 68 => ⟨S512000x1, .i32⟩
  | 69 => ⟨S128000x256, .f32⟩
  | 70 => ⟨S1x256, .f32⟩
  | 71 => ⟨S128000x256, .f32⟩
  | 72 => ⟨S128000x256, .f32⟩
  | 73 => ⟨S_, .f32⟩
  | 74 => ⟨S128000x256, .f32⟩
  | 75 => ⟨S128000x256, .f32⟩
  | 76 => ⟨S128000x128, .f32⟩
  | 77 => ⟨S_, .i32⟩
  | 78 => ⟨S512000, .i32⟩
  | 79 => ⟨S512000, .i1⟩
  | 80 => ⟨S_, .i32⟩
  | 81 => ⟨S512000, .i32⟩
  | 82 => ⟨S512000, .i32⟩
  | 83 => ⟨S512000, .i32⟩
  | 84 => ⟨S512000x1, .i32⟩
  | 85 => ⟨S512000x128, .f32⟩
  | 86 => ⟨S512000x1, .f32⟩
  | 87 => ⟨S512000x128, .f32⟩
  | 88 => ⟨S512000x128, .f32⟩
  | 89 => ⟨S_, .f32⟩
  | 90 => ⟨S128000x128, .f32⟩
  | 91 => ⟨S512000x1, .i32⟩
  | 92 => ⟨S128000x128, .f32⟩
  | 93 => ⟨S1x128, .f32⟩
  | 94 => ⟨S128000x128, .f32⟩
  | 95 => ⟨S128000x128, .f32⟩
  | 96 => ⟨S_, .f32⟩
  | 97 => ⟨S1000x128, .f32⟩
  | 98 => ⟨S128000x1, .i32⟩
  | 99 => ⟨S1000x128, .f32⟩
  | 100 => ⟨S_, .f32⟩
  | 101 => ⟨S128000, .f32⟩
  | 102 => ⟨S_, .f32⟩
  | 103 => ⟨S1000, .f32⟩
  | 104 => ⟨S128000x1, .i32⟩
  | 105 => ⟨S1000, .f32⟩
  | 106 => ⟨S_, .f32⟩
  | 107 => ⟨S1000, .f32⟩
  | 108 => ⟨S1000, .f32⟩
  | 109 => ⟨S1000x1, .f32⟩
  | 110 => ⟨S1000x128, .f32⟩
  | 111 => ⟨S1000x128, .f32⟩
  | 112 => ⟨S4096x1, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S4096x128, .f32⟩
  | 123 => ⟨S4096x1, .i32⟩
  | 124 => ⟨S4096, .i32⟩
  | 125 => ⟨S_, .i32⟩
  | 126 => ⟨S4096, .i32⟩
  | 127 => ⟨S4096, .i1⟩
  | _ => ⟨S128000x256, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x128, .f32⟩
  | 6 => ⟨S4096x256, .f32⟩
  | 7 => ⟨S4096x1, .f32⟩
  | 8 => ⟨S1x1, .f32⟩
  | 9 => ⟨S4096x1, .f32⟩
  | 10 => ⟨S4096x1, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | _ => ⟨S128000x256, .f32⟩

abbrev hbmTy (i : Nat) : BufTy := match i / 128 with
  | 0 => hbmTy0_0 i
  | 1 => hbmTy0_1 i
  | _ => ⟨S128000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S256x128, .f32⟩
  | .local _ .vmem, ⟨8, _⟩ => ⟨S4000x128, .f32⟩
  | .local _ .vmem, ⟨9, _⟩ => ⟨S4000x128, .f32⟩
  | _, _ => ⟨S128000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_21 : Ref sig .tc := ⟨.hbm, 141, rfl⟩
abbrev main_v104 : Ref sig .tc := ⟨.hbm, 142, rfl⟩
abbrev main_v105 : Ref sig .tc := ⟨.hbm, 143, rfl⟩
abbrev main_cst_22 : Ref sig .tc := ⟨.hbm, 144, rfl⟩
abbrev main_v106 : Ref sig .tc := ⟨.hbm, 145, rfl⟩
abbrev main_v107 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x384000_S1x384000_0_0 : S2x384000.Slices ![0, 0] S1x384000
  shapeCasts_S1x384000_S384000 : S1x384000.ShapeCasts S384000
  concatenates_S384000_S128000_S512000_d0 : Shape.Concatenates [S384000, S128000] S512000 0
  slices_S2x384000_S1x384000_1_0 : S2x384000.Slices ![1, 0] S1x384000
  bcast_S_S512000 : S_.BroadcastsInDim S512000 (![] : Fin 0 → Fin S512000.rank)
  bcast_S_S128000 : S_.BroadcastsInDim S128000 (![] : Fin 0 → Fin S128000.rank)
  bcast_S512000_S512000x1_0 : S512000.BroadcastsInDim S512000x1 (![0] : Fin 1 → Fin S512000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S512000x1_S512000x256_0_1 : S512000x1.BroadcastsInDim S512000x256 (![0, 1] : Fin 2 → Fin S512000x256.rank)
  bcast_S_S128000x256 : S_.BroadcastsInDim S128000x256 (![] : Fin 0 → Fin S128000x256.rank)
  bcast_S256_S1x256_1 : S256.BroadcastsInDim S1x256 (![1] : Fin 1 → Fin S1x256.rank)
  bcast_S1x256_S128000x256_0_1 : S1x256.BroadcastsInDim S128000x256 (![0, 1] : Fin 2 → Fin S128000x256.rank)
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S512000x1_S512000x128_0_1 : S512000x1.BroadcastsInDim S512000x128 (![0, 1] : Fin 2 → Fin S512000x128.rank)
  bcast_S_S128000x128 : S_.BroadcastsInDim S128000x128 (![] : Fin 0 → Fin S128000x128.rank)
  bcast_S128_S1x128_1 : S128.BroadcastsInDim S1x128 (![1] : Fin 1 → Fin S1x128.rank)
  bcast_S1x128_S128000x128_0_1 : S1x128.BroadcastsInDim S128000x128 (![0, 1] : Fin 2 → Fin S128000x128.rank)
  bcast_S_S1000x128 : S_.BroadcastsInDim S1000x128 (![] : Fin 0 → Fin S1000x128.rank)
  bcast_S128000_S128000x1_0 : S128000.BroadcastsInDim S128000x1 (![0] : Fin 1 → Fin S128000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  concatenates_S4096x128_S4096x128_S4096x256_d1 : Shape.Concatenates [S4096x128, S4096x128] S4096x256 1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  scatter_S128000_S512000x1_S512000_n_0_0_1_wf : ScatterDims.WF S128000 S512000x1 S512000 [] [0] [0] 1
  gather_S128000_S512000x1_S512000_n_0_n_n_0_1_1_wf : GatherDims.WF S128000 S512000x1 S512000 [] [0] [] [0] [] 1 ![1]
  dot_S4000x256_S256x256_S4000x256_1_0_0_1_n_n_wf : DotDims.WF S4000x256 S256x256 S4000x256 [1] [0] [0] [1] [] []
  gather_S128000x256_S512000x1_S512000x256_1_0_n_n_0_1_1256_wf : GatherDims.WF S128000x256 S512000x1 S512000x256 [1] [0] [] [0] [] 1 ![1, 256]
  scatter_S128000x256_S512000x1_S512000x256_1_0_0_1_wf : ScatterDims.WF S128000x256 S512000x1 S512000x256 [1] [0] [0] 1
  dot_S4000x256_S256x128_S4000x128_1_0_0_1_n_n_wf : DotDims.WF S4000x256 S256x128 S4000x128 [1] [0] [0] [1] [] []
  gather_S128000x128_S512000x1_S512000x128_1_0_n_n_0_1_1128_wf : GatherDims.WF S128000x128 S512000x1 S512000x128 [1] [0] [] [0] [] 1 ![1, 128]
  scatter_S128000x128_S512000x1_S512000x128_1_0_0_1_wf : ScatterDims.WF S128000x128 S512000x1 S512000x128 [1] [0] [0] 1
  scatter_S1000x128_S128000x1_S128000x128_1_0_0_1_wf : ScatterDims.WF S1000x128 S128000x1 S128000x128 [1] [0] [0] 1
  scatter_S1000_S128000x1_S128000_n_0_0_1_wf : ScatterDims.WF S1000 S128000x1 S128000 [] [0] [0] 1
  gather_S1000x128_S4096x1_S4096x128_1_0_n_n_0_1_1128_wf : GatherDims.WF S1000x128 S4096x1 S4096x128 [1] [0] [] [0] [] 1 ![1, 128]
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S128000x256.size a
  hwx0_0 : ∀ i : grid0.Coords, EltTy.bits .f32 = 32 ∨ (Rect.block (s := S128000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S128000x256.size a
  hwx0_2 : ∀ i : grid0.Coords, EltTy.bits .f32 = 32 ∨ (Rect.block (s := S128000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S128000x256.size a
  hwx1_0 : ∀ i : grid1.Coords, EltTy.bits .f32 = 32 ∨ (Rect.block (s := S128000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S128000x128.size a
  hwx1_2 : ∀ i : grid1.Coords, EltTy.bits .f32 = 32 ∨ (Rect.block (s := S128000x128) S4000x128.size (cc1_transform_2 i) (hinb1_2 i)).WholeWords (EltTy.packing .f32)

variable [Facts₀]

def scatter_S128000_S512000x1_S512000_n_0_0_1 : ScatterDims S128000 S512000x1 S512000 where
  updateWindowDims := []
  insertedWindowDims := [0]
  scatterDimsToOperandDims := [0]
  indexVectorDim := 1
  wf := scatter_S128000_S512000x1_S512000_n_0_0_1_wf
def gather_S128000_S512000x1_S512000_n_0_n_n_0_1_1 : GatherDims S128000 S512000x1 S512000 where
  offsetDims := []
  collapsedSliceDims := [0]
  operandBatchingDims := []
  startIndicesBatchingDims := []
  startIndexMap := [0]
  indexVectorDim := 1
  sliceSizes := ![1]
  wf := gather_S128000_S512000x1_S512000_n_0_n_n_0_1_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S128000x256_S512000x1_S512000x256_1_0_n_n_0_1_1256 : GatherDims S128000x256 S512000x1 S512000x256 where
  offsetDims := [1]
  collapsedSliceDims := [0]
  operandBatchingDims := []
  startIndicesBatchingDims := []
  startIndexMap := [0]
  indexVectorDim := 1
  sliceSizes := ![1, 256]
  wf := gather_S128000x256_S512000x1_S512000x256_1_0_n_n_0_1_1256_wf
def scatter_S128000x256_S512000x1_S512000x256_1_0_0_1 : ScatterDims S128000x256 S512000x1 S512000x256 where
  updateWindowDims := [1]
  insertedWindowDims := [0]
  scatterDimsToOperandDims := [0]
  indexVectorDim := 1
  wf := scatter_S128000x256_S512000x1_S512000x256_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S128000x128_S512000x1_S512000x128_1_0_n_n_0_1_1128 : GatherDims S128000x128 S512000x1 S512000x128 where
  offsetDims := [1]
  collapsedSliceDims := [0]
  operandBatchingDims := []
  startIndicesBatchingDims := []
  startIndexMap := [0]
  indexVectorDim := 1
  sliceSizes := ![1, 128]
  wf := gather_S128000x128_S512000x1_S512000x128_1_0_n_n_0_1_1128_wf
def scatter_S128000x128_S512000x1_S512000x128_1_0_0_1 : ScatterDims S128000x128 S512000x1 S512000x128 where
  updateWindowDims := [1]
  insertedWindowDims := [0]
  scatterDimsToOperandDims := [0]
  indexVectorDim := 1
  wf := scatter_S128000x128_S512000x1_S512000x128_1_0_0_1_wf
def scatter_S1000x128_S128000x1_S128000x128_1_0_0_1 : ScatterDims S1000x128 S128000x1 S128000x128 where
  updateWindowDims := [1]
  insertedWindowDims := [0]
  scatterDimsToOperandDims := [0]
  indexVectorDim := 1
  wf := scatter_S1000x128_S128000x1_S128000x128_1_0_0_1_wf
def scatter_S1000_S128000x1_S128000_n_0_0_1 : ScatterDims S1000 S128000x1 S128000 where
  updateWindowDims := []
  insertedWindowDims := [0]
  scatterDimsToOperandDims := [0]
  indexVectorDim := 1
  wf := scatter_S1000_S128000x1_S128000_n_0_0_1_wf
def gather_S1000x128_S4096x1_S4096x128_1_0_n_n_0_1_1128 : GatherDims S1000x128 S4096x1 S4096x128 where
  offsetDims := [1]
  collapsedSliceDims := [0]
  operandBatchingDims := []
  startIndicesBatchingDims := []
  startIndexMap := [0]
  indexVectorDim := 1
  sliceSizes := ![1, 128]
  wf := gather_S1000x128_S4096x1_S4096x128_1_0_n_n_0_1_1128_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S128000x256 : Shape := ⟨2, ![128000, 256]⟩
abbrev S2x384000 : Shape := ⟨2, ![2, 384000]⟩
abbrev S128000 : Shape := ⟨1, ![128000]⟩
abbrev S4096x2 : Shape := ⟨2, ![4096, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S1x384000 : Shape := ⟨2, ![1, 384000]⟩
abbrev S384000 : Shape := ⟨1, ![384000]⟩
abbrev S512000 : Shape := ⟨1, ![512000]⟩
abbrev S_ : Shape := ⟨0, ![]⟩
abbrev S512000x1 : Shape := ⟨2, ![512000, 1]⟩
abbrev S512000x256 : Shape := ⟨2, ![512000, 256]⟩
abbrev S1x256 : Shape := ⟨2, ![1, 256]⟩
abbrev S128000x128 : Shape := ⟨2, ![128000, 128]⟩
abbrev S512000x128 : Shape := ⟨2, ![512000, 128]⟩
abbrev S1x128 : Shape := ⟨2, ![1, 128]⟩
abbrev S1000x128 : Shape := ⟨2, ![1000, 128]⟩
abbrev S128000x1 : Shape := ⟨2, ![128000, 1]⟩
abbrev S1000 : Shape := ⟨1, ![1000]⟩
abbrev S1000x1 : Shape := ⟨2, ![1000, 1]⟩
abbrev S4096x1 : Shape := ⟨2, ![4096, 1]⟩
abbrev S4096 : Shape := ⟨1, ![4096]⟩
abbrev S4096x128 : Shape := ⟨2, ![4096, 128]⟩
abbrev S4096x256 : Shape := ⟨2, ![4096, 256]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S128000x256, .f32⟩
  | 1 => ⟨S2x384000, .i32⟩
  | 2 => ⟨S128000, .i32⟩
  | 3 => ⟨S4096x2, .i32⟩
  | 4 => ⟨S256x256, .f32⟩
  | 5 => ⟨S256, .f32⟩
  | 6 => ⟨S256x128, .f32⟩
  | 7 => ⟨S128, .f32⟩
  | 8 => ⟨S256x1, .f32⟩
  | 9 => ⟨S1, .f32⟩
  | 10 => ⟨S128000, .i32⟩
  | 11 => ⟨S1x384000, .i32⟩
  | 12 => ⟨S384000, .i32⟩
  | 13 => ⟨S512000, .i32⟩
  | 14 => ⟨S1x384000, .i32⟩
  | 15 => ⟨S384000, .i32⟩
  | 16 => ⟨S512000, .i32⟩
  | 17 => ⟨S_, .f32⟩
  | 18 => ⟨S512000, .f32⟩
  | 19 => ⟨S_, .f32⟩
  | 20 => ⟨S128000, .f32⟩
  | 21 => ⟨S512000x1, .i32⟩
  | 22 => ⟨S128000, .f32⟩
  | 23 => ⟨S_, .f32⟩
  | 24 => ⟨S128000, .f32⟩
  | 25 => ⟨S128000, .i1⟩
  | 26 => ⟨S_, .f32⟩
  | 27 => ⟨S128000, .f32⟩
  | 28 => ⟨S128000, .f32⟩
  | 29 => ⟨S128000, .f32⟩
  | 30 => ⟨S_, .f32⟩
  | 31 => ⟨S_, .f32⟩
  | 32 => ⟨S128000, .f32⟩
  | 33 => ⟨S128000, .f32⟩
  | 34 => ⟨S128000x256, .f32⟩
  | 35 => ⟨S_, .i32⟩
  | 36 => ⟨S512000, .i32⟩
  | 37 => ⟨S512000, .i1⟩
  | 38 => ⟨S_, .i32⟩
  | 39 => ⟨S512000, .i32⟩
  | 40 => ⟨S512000, .i32⟩
  | 41 => ⟨S512000, .i32⟩
  | 42 => ⟨S512000x1, .i32⟩
  | 43 => ⟨S512000, .f32⟩
  | 44 => ⟨S_, .i32⟩
  | 45 => ⟨S512000, .i32⟩
  | 46 => ⟨S512000, .i1⟩
  | 47 => ⟨S_, .i32⟩
  | 48 => ⟨S512000, .i32⟩
  | 49 => ⟨S512000, .i32⟩
  | 50 => ⟨S512000, .i32⟩
  | 51 => ⟨S512000x1, .i32⟩
  | 52 => ⟨S512000, .f32⟩
  | 53 => ⟨S512000, .f32⟩
  | 54 => ⟨S_, .i32⟩
  | 55 => ⟨S512000, .i32⟩
  | 56 => ⟨S512000, .i1⟩
  | 57 => ⟨S_, .i32⟩
  | 58 => ⟨S512000, .i32⟩
  | 59 => ⟨S512000, .i32⟩
  | 60 => ⟨S512000, .i32⟩
  | 61 => ⟨S512000x1, .i32⟩
  | 62 => ⟨S512000x256, .f32⟩
  | 63 => ⟨S512000x1, .f32⟩
  | 64 => ⟨S512000x256, .f32⟩
  | 65 => ⟨S512000x256, .f32⟩
  | 66 => ⟨S_, .f32⟩
  | 67 => ⟨S128000x256, .f32⟩
  | 68 => ⟨S512000x1, .i32⟩
  | 69 => ⟨S128000x256, .f32⟩
  | 70 => ⟨S1x256, .f32⟩
  | 71 => ⟨S128000x256, .f32⟩
  | 72 => ⟨S128000x256, .f32⟩
  | 73 => ⟨S_, .f32⟩
  | 74 => ⟨S128000x256, .f32⟩
  | 75 => ⟨S128000x256, .f32⟩
  | 76 => ⟨S128000x128, .f32⟩
  | 77 => ⟨S_, .i32⟩
  | 78 => ⟨S512000, .i32⟩
  | 79 => ⟨S512000, .i1⟩
  | 80 => ⟨S_, .i32⟩
  | 81 => ⟨S512000, .i32⟩
  | 82 => ⟨S512000, .i32⟩
  | 83 => ⟨S512000, .i32⟩
  | 84 => ⟨S512000x1, .i32⟩
  | 85 => ⟨S512000, .f32⟩
  | 86 => ⟨S_, .i32⟩
  | 87 => ⟨S512000, .i32⟩
  | 88 => ⟨S512000, .i1⟩
  | 89 => ⟨S_, .i32⟩
  | 90 => ⟨S512000, .i32⟩
  | 91 => ⟨S512000, .i32⟩
  | 92 => ⟨S512000, .i32⟩
  | 93 => ⟨S512000x1, .i32⟩
  | 94 => ⟨S512000, .f32⟩
  | 95 => ⟨S512000, .f32⟩
  | 96 => ⟨S_, .i32⟩
  | 97 => ⟨S512000, .i32⟩
  | 98 => ⟨S512000, .i1⟩
  | 99 => ⟨S_, .i32⟩
  | 100 => ⟨S512000, .i32⟩
  | 101 => ⟨S512000, .i32⟩
  | 102 => ⟨S512000, .i32⟩
  | 103 => ⟨S512000x1, .i32⟩
  | 104 => ⟨S512000x128, .f32⟩
  | 105 => ⟨S512000x1, .f32⟩
  | 106 => ⟨S512000x128, .f32⟩
  | 107 => ⟨S512000x128, .f32⟩
  | 108 => ⟨S_, .f32⟩
  | 109 => ⟨S128000x128, .f32⟩
  | 110 => ⟨S512000x1, .i32⟩
  | 111 => ⟨S128000x128, .f32⟩
  | 112 => ⟨S1x128, .f32⟩
  | 113 => ⟨S128000x128, .f32⟩
  | 114 => ⟨S128000x128, .f32⟩
  | 115 => ⟨S_, .f32⟩
  | 116 => ⟨S1000x128, .f32⟩
  | 117 => ⟨S128000x1, .i32⟩
  | 118 => ⟨S1000x128, .f32⟩
  | 119 => ⟨S_, .f32⟩
  | 120 => ⟨S128000, .f32⟩
  | 121 => ⟨S_, .f32⟩
  | 122 => ⟨S1000, .f32⟩
  | 123 => ⟨S128000x1, .i32⟩
  | 124 => ⟨S1000, .f32⟩
  | 125 => ⟨S_, .f32⟩
  | 126 => ⟨S1000, .f32⟩
  | 127 => ⟨S1000, .f32⟩
  | _ => ⟨S128000x256, .f32⟩

abbrev hbmTy0_1 (i : Nat) : BufTy := match i % 128 with
  | 0 => ⟨S1000x1, .f32⟩
  | 1 => ⟨S1000x128, .f32⟩
  | 2 => ⟨S1000x128, .f32⟩
  | 3 => ⟨S4096x1, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S4096x128, .f32⟩
  | 14 => ⟨S4096x1, .i32⟩
  | 15 => ⟨S4096, .i32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S4096x1, .i32⟩
  | 24 => ⟨S4096x128, .f32⟩
  | 25 => ⟨S4096x256, .f32⟩
  | 26 => ⟨S4096x1, .f32⟩
  | 27 => ⟨S1x1, .f32⟩
  | 28 => ⟨S4096x1, .f32⟩
  | 29 => ⟨S4096x1, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | _ => ⟨S128000x256, .f32⟩

abbrev hbmTy (i : Nat) : BufTy := match i / 128 with
  | 0 => hbmTy0_0 i
  | 1 => hbmTy0_1 i
  | _ => ⟨S128000x256, .f32⟩

abbrev bufTy : (tb : Table) → Fin (tcTables nBuf tb) → BufTy
  | .hbm, ⟨i, _⟩ => hbmTy i
  | _, _ => ⟨S128000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_18 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_20 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_21 : Ref sig .tc := ⟨.hbm, 133, rfl⟩
abbrev main_v96 : Ref sig .tc := ⟨.hbm, 134, rfl⟩
abbrev main_v97 : Ref sig .tc := ⟨.hbm, 135, rfl⟩
abbrev main_c_22 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_c_23 : Ref sig .tc := ⟨.hbm, 144, rfl⟩
abbrev main_v105 : Ref sig .tc := ⟨.hbm, 145, rfl⟩
abbrev main_v106 : Ref sig .tc := ⟨.hbm, 146, rfl⟩
abbrev main_c_24 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_25 : Ref sig .tc := ⟨.hbm, 160, rfl⟩
abbrev main_v119 : Ref sig .tc := ⟨.hbm, 161, rfl⟩
abbrev main_v120 : Ref sig .tc := ⟨.hbm, 162, rfl⟩
abbrev main_cst_26 : Ref sig .tc := ⟨.hbm, 163, rfl⟩
abbrev main_v121 : Ref sig .tc := ⟨.hbm, 164, rfl⟩
abbrev main_v122 : Ref sig .tc := ⟨.hbm, 165, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  concatenates_S384000_S128000_S512000_d0 : Shape.Concatenates [S384000, S128000] S512000 0
  slices_S2x384000_S1x384000_1_0 : S2x384000.Slices ![1, 0] S1x384000
  bcast_S_S512000 : S_.BroadcastsInDim S512000 (![] : Fin 0 → Fin S512000.rank)
  bcast_S_S128000 : S_.BroadcastsInDim S128000 (![] : Fin 0 → Fin S128000.rank)
  bcast_S512000_S512000x1_0 : S512000.BroadcastsInDim S512000x1 (![0] : Fin 1 → Fin S512000x1.rank)
  bcast_S512000x1_S512000x256_0_1 : S512000x1.BroadcastsInDim S512000x256 (![0, 1] : Fin 2 → Fin S512000x256.rank)
  bcast_S_S128000x256 : S_.BroadcastsInDim S128000x256 (![] : Fin 0 → Fin S128000x256.rank)
  bcast_S256_S1x256_1 : S256.BroadcastsInDim S1x256 (![1] : Fin 1 → Fin S1x256.rank)
  bcast_S1x256_S128000x256_0_1 : S1x256.BroadcastsInDim S128000x256 (![0, 1] : Fin 2 → Fin S128000x256.rank)
  bcast_S512000x1_S512000x128_0_1 : S512000x1.BroadcastsInDim S512000x128 (![0, 1] : Fin 2 → Fin S512000x128.rank)
  bcast_S_S128000x128 : S_.BroadcastsInDim S128000x128 (![] : Fin 0 → Fin S128000x128.rank)
  bcast_S128_S1x128_1 : S128.BroadcastsInDim S1x128 (![1] : Fin 1 → Fin S1x128.rank)
  bcast_S1x128_S128000x128_0_1 : S1x128.BroadcastsInDim S128000x128 (![0, 1] : Fin 2 → Fin S128000x128.rank)
  bcast_S_S1000x128 : S_.BroadcastsInDim S1000x128 (![] : Fin 0 → Fin S1000x128.rank)
  bcast_S128000_S128000x1_0 : S128000.BroadcastsInDim S128000x1 (![0] : Fin 1 → Fin S128000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  concatenates_S4096x128_S4096x128_S4096x256_d1 : Shape.Concatenates [S4096x128, S4096x128] S4096x256 1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  scatter_S128000_S512000x1_S512000_n_0_0_1_wf : ScatterDims.WF S128000 S512000x1 S512000 [] [0] [0] 1
  dot_S128000x256_S256x256_S128000x256_1_0_0_1_n_n_wf : DotDims.WF S128000x256 S256x256 S128000x256 [1] [0] [0] [1] [] []
  gather_S128000_S512000x1_S512000_n_0_n_n_0_1_1_wf : GatherDims.WF S128000 S512000x1 S512000 [] [0] [] [0] [] 1 ![1]
  gather_S128000x256_S512000x1_S512000x256_1_0_n_n_0_1_1256_wf : GatherDims.WF S128000x256 S512000x1 S512000x256 [1] [0] [] [0] [] 1 ![1, 256]
  scatter_S128000x256_S512000x1_S512000x256_1_0_0_1_wf : ScatterDims.WF S128000x256 S512000x1 S512000x256 [1] [0] [0] 1
  dot_S128000x256_S256x128_S128000x128_1_0_0_1_n_n_wf : DotDims.WF S128000x256 S256x128 S128000x128 [1] [0] [0] [1] [] []
  gather_S128000x128_S512000x1_S512000x128_1_0_n_n_0_1_1128_wf : GatherDims.WF S128000x128 S512000x1 S512000x128 [1] [0] [] [0] [] 1 ![1, 128]
  scatter_S128000x128_S512000x1_S512000x128_1_0_0_1_wf : ScatterDims.WF S128000x128 S512000x1 S512000x128 [1] [0] [0] 1
  scatter_S1000x128_S128000x1_S128000x128_1_0_0_1_wf : ScatterDims.WF S1000x128 S128000x1 S128000x128 [1] [0] [0] 1
  scatter_S1000_S128000x1_S128000_n_0_0_1_wf : ScatterDims.WF S1000 S128000x1 S128000 [] [0] [0] 1
  gather_S1000x128_S4096x1_S4096x128_1_0_n_n_0_1_1128_wf : GatherDims.WF S1000x128 S4096x1 S4096x128 [1] [0] [] [0] [] 1 ![1, 128]
  dot_S4096x256_S256x1_S4096x1_1_0_0_1_n_n_wf : DotDims.WF S4096x256 S256x1 S4096x1 [1] [0] [0] [1] [] []

variable [Facts₀]

def scatter_S128000_S512000x1_S512000_n_0_0_1 : ScatterDims S128000 S512000x1 S512000 where
  updateWindowDims := []
  insertedWindowDims := [0]
  scatterDimsToOperandDims := [0]
  indexVectorDim := 1
  wf := scatter_S128000_S512000x1_S512000_n_0_0_1_wf
def dot_S128000x256_S256x256_S128000x256_1_0_0_1_n_n : DotDims S128000x256 S256x256 S128000x256 where
  lhsContracting := [1]
  rhsContracting := [0]
  lhsNonContracting := [0]
  rhsNonContracting := [1]
  lhsBatch := []
  rhsBatch := []
  wf := dot_S128000x256_S256x256_S128000x256_1_0_0_1_n_n_wf
def gather_S128000_S512000x1_S512000_n_0_n_n_0_1_1 : GatherDims S128000 S512000x1 S512000 where
  offsetDims := []
  collapsedSliceDims := [0]
  operandBatchingDims := []
  startIndicesBatchingDims := []
  startIndexMap := [0]
  indexVectorDim := 1
  sliceSizes := ![1]
  wf := gather_S128000_S512000x1_S512000_n_0_n_n_0_1_1_wf
def gather_S128000x256_S512000x1_S512000x256_1_0_n_n_0_1_1256 : GatherDims S128000x256 S512000x1 S512000x256 where
  offsetDims := [1]
  collapsedSliceDims := [0]
  operandBatchingDims := []
  startIndicesBatchingDims := []
  startIndexMap := [0]
  indexVectorDim := 1
  sliceSizes := ![1, 256]
  wf := gather_S128000x256_S512000x1_S512000x256_1_0_n_n_0_1_1256_wf
def scatter_S128000x256_S512000x1_S512000x256_1_0_0_1 : ScatterDims S128000x256 S512000x1 S512000x256 where
  updateWindowDims := [1]
  insertedWindowDims := [0]
  scatterDimsToOperandDims := [0]
  indexVectorDim := 1
  wf := scatter_S128000x256_S512000x1_S512000x256_1_0_0_1_wf
def dot_S128000x256_S256x128_S128000x128_1_0_0_1_n_n : DotDims S128000x256 S256x128 S128000x128 where
  lhsContracting := [1]
  rhsContracting := [0]
  lhsNonContracting := [0]
  rhsNonContracting := [1]
  lhsBatch := []
  rhsBatch := []
  wf := dot_S128000x256_S256x128_S128000x128_1_0_0_1_n_n_wf
def gather_S128000x128_S512000x1_S512000x128_1_0_n_n_0_1_1128 : GatherDims S128000x128 S512000x1 S512000x128 where
  offsetDims := [1]
  collapsedSliceDims := [0]
  operandBatchingDims := []
  startIndicesBatchingDims := []
  startIndexMap := [0]
  indexVectorDim := 1
  sliceSizes := ![1, 128]
  wf := gather_S128000x128_S512000x1_S512000x128_1_0_n_n_0_1_1128_wf
def scatter_S128000x128_S512000x1_S512000x128_1_0_0_1 : ScatterDims S128000x128 S512000x1 S512000x128 where
  updateWindowDims := [1]
  insertedWindowDims := [0]
  scatterDimsToOperandDims := [0]
  indexVectorDim := 1
  wf := scatter_S128000x128_S512000x1_S512000x128_1_0_0_1_wf
def scatter_S1000x128_S128000x1_S128000x128_1_0_0_1 : ScatterDims S1000x128 S128000x1 S128000x128 where
  updateWindowDims := [1]
  insertedWindowDims := [0]
  scatterDimsToOperandDims := [0]
  indexVectorDim := 1
  wf := scatter_S1000x128_S128000x1_S128000x128_1_0_0_1_wf
def scatter_S1000_S128000x1_S128000_n_0_0_1 : ScatterDims S1000 S128000x1 S128000 where
  updateWindowDims := []
  insertedWindowDims := [0]
  scatterDimsToOperandDims := [0]
  indexVectorDim := 1
  wf := scatter_S1000_S128000x1_S128000_n_0_0_1_wf
def gather_S1000x128_S4096x1_S4096x128_1_0_n_n_0_1_1128 : GatherDims S1000x128 S4096x1 S4096x128 where
  offsetDims := [1]
  collapsedSliceDims := [0]
  operandBatchingDims := []
  startIndicesBatchingDims := []
  startIndexMap := [0]
  indexVectorDim := 1
  sliceSizes := ![1, 128]
  wf := gather_S1000x128_S4096x1_S4096x128_1_0_n_n_0_1_1128_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.KernelRun.lean ====
/-
  The kernel program's run with its result named.

  @main is eight segments: three stretches of host operations, the first matrix-unit region, two stretches, the second
  region, and the last stretch.  The contents of the TensorCore's buffers at each boundary are a fold from the launch
  memory — a stretch applies its operations, a region leaves its arrays at what its write-backs give and every other
  buffer alone — and the library's launch theorem for such a chain of segments ends every weakly fair execution in a
  state whose unscoped buffers hold the last boundary's contents `W8`.  The frame claim reads only the argument buffers
  off that state; here the same run is read at the result buffer as well: it ends holding `W8` at `main_v107`, which the
  value modules compute.  Stated at any float instance.
-/
import proofs.«152697_j43430709297955_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the arguments as launched: the launch theorem over the eight segments, the thread state at the end read
    against the final state at every unscoped buffer, among them the result's. -/
theorem run : θ_run defs (onTc (τ := τ) (main (F := F))) ⟨m, fun _ => 0, ρ⟩ (fun r => ∀ c : Dev nD,
      r.2.mem ((c.tc : Thread nD τ).loc main_v107) = W8 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v107 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.ResultRun

end
-- ==== Proof.Stages.lean ====
/-
  The host stages the two programs share, as pure functions of arrays.

  Both programs are one graph-convolution pipeline: from the edge list (argument 1, two rows of 384000 node numbers) the
  source and target tables of the 512000 edges (the listed edges followed by one self-loop per node); from the tables the
  symmetric normalisation of each edge, dis[src]·dis[dst] with dis = deg^(-1/2) where the in-degree deg is positive and 0
  elsewhere; then twice "multiply by a weight matrix, gather the rows at the sources, scale each by its edge's
  normalisation, add them up at the targets, add the bias" (with a floor at zero after the first); then the mean of the
  node rows of each image, the two image rows of each pair side by side, one more contraction with a column, a bias and
  the logistic function.  Only the two multiplications by a weight matrix are computed differently by the two programs
  (a blocked matrix unit against one host contraction); everything before, between and after them is the same line of
  host operations.  Here each such line is ONE function, its body the operations in program order, so that a value proof
  states both programs' results with the same terms and never opens them:

    edgeSrc, edgeDst   the edge tables (operations %0 … %6);
    edgeNorm           the normalisation of every edge, from the tables (%7 … %31);
    layer1             the first layer after its product: gather, scale, scatter-add, bias, floor at zero (%33 … %49);
    tail               the second layer after its product, the mean pool, the pair rows and the logistic (%51 … %107).
-/
import proofs.«152697_j43430709297955_1_alg».proof.Proof.Gen.KernelIdeal

noncomputable section

namespace Cert.KernelIdeal.Stages

open Idealize.ShloMosaic Idealize.ShloMosaic.TcCoe Cert.KernelIdeal Cert.KernelIdeal.Facts₀ Cert.KernelIdeal.Facts

variable {F : FTy → Type} [FloatOps F]

/-- The source node of every edge: row 0 of the edge list, then the nodes 0 … 127999 themselves (the self-loops). -/
def edgeSrc (a1 : (⟨S2x384000, .i32⟩ : BufTy).Contents (Elt F)) : (⟨S512000, .i32⟩ : BufTy).Contents (Elt F) :=
  have v0 : (⟨S128000, .i32⟩ : BufTy).Contents (Elt F) := iotaInDim S128000 32 0
  have v1 := ((extractStridedSlice S1x384000 ![0, 0] · slices_S2x384000_S1x384000_0_0) : (⟨S2x384000, .i32⟩ : BufTy).Contents (Elt F) → (⟨S1x384000, .i32⟩ : BufTy).Contents (Elt F)) a1
  have v2 : (⟨S384000, .i32⟩ : BufTy).Contents (Elt F) := shapeCast S384000 v1 shapeCasts_S1x384000_S384000
  have v3 := ((fun a b => concatenate S512000 0 [⟨S384000, a⟩, ⟨S128000, b⟩] concatenates_S384000_S128000_S512000_d0) : (⟨S384000, .i32⟩ : BufTy).Contents (Elt F) → (⟨S128000, .i32⟩ : BufTy).Contents (Elt F) → (⟨S512000, .i32⟩ : BufTy).Contents (Elt F)) v2 v0
  v3

/-- The target node of every edge: row 1 of the edge list, then the self-loops. -/
def edgeDst (a1 : (⟨S2x384000, .i32⟩ : BufTy).Contents (Elt F)) : (⟨S512000, .i32⟩ : BufTy).Contents (Elt F) :=
  have v0 : (⟨S128000, .i32⟩ : BufTy).Contents (Elt F) := iotaInDim S128000 32 0
  have v4 := ((extractStridedSlice S1x384000 ![1, 0] · slices_S2x384000_S1x384000_1_0) : (⟨S2x384000, .i32⟩ : BufTy).Contents (Elt F) → (⟨S1x384000, .i32⟩ : BufTy).Contents (Elt F)) a1
  have v5 : (⟨S384000, .i32⟩ : BufTy).Contents (Elt F) := shapeCast S384000 v4 shapeCasts_S1x384000_S384000
  have v6 := ((fun a b => concatenate S512000 0 [⟨S384000, a⟩, ⟨S128000, b⟩] concatenates_S384000_S128000_S512000_d0) : (⟨S384000, .i32⟩ : BufTy).Contents (Elt F) → (⟨S128000, .i32⟩ : BufTy).Contents (Elt F) → (⟨S512000, .i32⟩ : BufTy).Contents (Elt F)) v5 v0
  v6

/-- The normalisation of every edge from the two tables: with deg the number of edges into a node (ones added up at the
    targets) and dis = rsqrt (max deg 1e-12) where deg > 0, else 0, the product dis[src] · dis[dst]; a table entry below
    zero is first moved up by the node count, as jnp's indexing does. -/
def edgeNorm (v3 v6 : (⟨S512000, .i32⟩ : BufTy).Contents (Elt F)) : (⟨S512000, .f32⟩ : BufTy).Contents (Elt F) :=
  have cst : (⟨S_, .f32⟩ : BufTy).Contents (Elt F) := constant S_ .f32 0x3F800000#32
  have v7 := (broadcastInDim S512000 ![] bcast_S_S512000 : (⟨S_, .f32⟩ : BufTy).Contents (Elt F) → (⟨S512000, .f32⟩ : BufTy).Contents (Elt F)) cst
  have cst_0 : (⟨S_, .f32⟩ : BufTy).Contents (Elt F) := constant S_ .f32 0x00000000#32
  have v8 := (broadcastInDim S128000 ![] bcast_S_S128000 : (⟨S_, .f32⟩ : BufTy).Contents (Elt F) → (⟨S128000, .f32⟩ : BufTy).Contents (Elt F)) cst_0
  have v9 := (broadcastInDim S512000x1 ![0] bcast_S512000_S512000x1_0 : (⟨S512000, .i32⟩ : BufTy).Contents (Elt F) → (⟨S512000x1, .i32⟩ : BufTy).Contents (Elt F)) v6
  have v10 := ((fun x i u => Host.scatterAdd scatter_S128000_S512000x1_S512000_n_0_0_1 x i u) : (⟨S128000, .f32⟩ : BufTy).Contents (Elt F) → (⟨S512000x1, .i32⟩ : BufTy).Contents (Elt F) → (⟨S512000, .f32⟩ : BufTy).Contents (Elt F) → (⟨S128000, .f32⟩ : BufTy).Contents (Elt F)) v8 v9 v7
  have cst_1 : (⟨S_, .f32⟩ : BufTy).Contents (Elt F) := constant S_ .f32 0x00000000#32
  have v11 := (broadcastInDim S128000 ![] bcast_S_S128000 : (⟨S_, .f32⟩ : BufTy).Contents (Elt F) → (⟨S128000, .f32⟩ : BufTy).Contents (Elt F)) cst_1
  have v12 := (cmpf .ogt : (⟨S128000, .f32⟩ : BufTy).Contents (Elt F) → (⟨S128000, .f32⟩ : BufTy).Contents (Elt F) → (⟨S128000, .i1⟩ : BufTy).Contents (Elt F)) v10 v11
  have cst_2 : (⟨S_, .f32⟩ : BufTy).Contents (Elt F) := constant S_ .f32 0x2B8CBCCC#32
  have v13 := (broadcastInDim S128000 ![] bcast_S_S128000 : (⟨S_, .f32⟩ : BufTy).Contents (Elt F) → (⟨S128000, .f32⟩ : BufTy).Contents (Elt F)) cst_2
  have v14 := (maximumf : (⟨S128000, .f32⟩ : BufTy).Contents (Elt F) → (⟨S128000, .f32⟩ : BufTy).Contents (Elt F) → (⟨S128000, .f32⟩ : BufTy).Contents (Elt F)) v10 v13
  have v15 := (Host.rsqrt : (⟨S128000, .f32⟩ : BufTy).Contents (Elt F) → (⟨S128000, .f32⟩ : BufTy).Contents (Elt F)) v14
  have cst_3 : (⟨S_, .f32⟩ : BufTy).Contents (Elt F) := constant S_ .f32 0x00000000#32
  have call0_v0 : (⟨S_, .f32⟩ : BufTy).Contents (Elt F) := id cst_3
  have call0_v1 : (⟨S128000, .f32⟩ : BufTy).Contents (Elt F) := broadcastInDim S128000 ![] bcast_S_S128000 call0_v0
  have v16 : (⟨S128000, .f32⟩ : BufTy).Contents (Elt F) := select v12 v15 call0_v1
  have c : (⟨S_, .i32⟩ : BufTy).Contents (Elt F) := constantI S_ 32 0#32
  have v17 := (broadcastInDim S512000 ![] bcast_S_S512000 : (⟨S_, .i32⟩ : BufTy).Contents (Elt F) → (⟨S512000, .i32⟩ : BufTy).Contents (Elt F)) c
  have v18 := (cmpi .slt : (⟨S512000, .i32⟩ : BufTy).Contents (Elt F) → (⟨S512000, .i32⟩ : BufTy).Contents (Elt F) → (⟨S512000, .i1⟩ : BufTy).Contents (Elt F)) v3 v17
  have c_4 : (⟨S_, .i32⟩ : BufTy).Contents (Elt F) := constantI S_ 32 128000#32
  have v19 := (broadcastInDim S512000 ![] bcast_S_S512000 : (⟨S_, .i32⟩ : BufTy).Contents (Elt F) → (⟨S512000, .i32⟩ : BufTy).Contents (Elt F)) c_4
  have v20 := (addi : (⟨S512000, .i32⟩ : BufTy).Contents (Elt F) → (⟨S512000, .i32⟩ : BufTy).Contents (Elt F) → (⟨S512000, .i32⟩ : BufTy).Contents (Elt F)) v3 v19
  have v21 := (select : (⟨S512000, .i1⟩ : BufTy).Contents (Elt F) → (⟨S512000, .i32⟩ : BufTy).Contents (Elt F) → (⟨S512000, .i32⟩ : BufTy).Contents (Elt F) → (⟨S512000, .i32⟩ : BufTy).Contents (Elt F)) v18 v20 v3
  have v22 := (broadcastInDim S512000x1 ![0] bcast_S512000_S512000x1_0 : (⟨S512000, .i32⟩ : BufTy).Contents (Elt F) → (⟨S512000x1, .i32⟩ : BufTy).Contents (Elt F)) v21
  have v23 := ((fun x i => Host.gather gather_S128000_S512000x1_S512000_n_0_n_n_0_1_1 x i) : (⟨S128000, .f32⟩ : BufTy).Contents (Elt F) → (⟨S512000x1, .i32⟩ : BufTy).Contents (Elt F) → (⟨S512000, .f32⟩ : BufTy).Contents (Elt F)) v16 v22
  have c_5 : (⟨S_, .i32⟩ : BufTy).Contents (Elt F) := constantI S_ 32 0#32
  have v24 := (broadcastInDim S512000 ![] bcast_S_S512000 : (⟨S_, .i32⟩ : BufTy).Contents (Elt F) → (⟨S512000, .i32⟩ : BufTy).Contents (Elt F)) c_5
  have v25 := (cmpi .slt : (⟨S512000, .i32⟩ : BufTy).Contents (Elt F) → (⟨S512000, .i32⟩ : BufTy).Contents (Elt F) → (⟨S512000, .i1⟩ : BufTy).Contents (Elt F)) v6 v24
  have c_6 : (⟨S_, .i32⟩ : BufTy).Contents (Elt F) := constantI S_ 32 128000#32
  have v26 := (broadcastInDim S512000 ![] bcast_S_S512000 : (⟨S_, .i32⟩ : BufTy).Contents (Elt F) → (⟨S512000, .i32⟩ : BufTy).Contents (Elt F)) c_6
  have v27 := (addi : (⟨S512000, .i32⟩ : BufTy).Contents (Elt F) → (⟨S512000, .i32⟩ : BufTy).Contents (Elt F) → (⟨S512000, .i32⟩ : BufTy).Contents (Elt F)) v6 v26
  have v28 := (select : (⟨S512000, .i1⟩ : BufTy).Contents (Elt F) → (⟨S512000, .i32⟩ : BufTy).Contents (Elt F) → (⟨S512000, .i32⟩ : BufTy).Contents (Elt F) → (⟨S512000, .i32⟩ : BufTy).Contents (Elt F)) v25 v27 v6
  have v29 := (broadcastInDim S512000x1 ![0] bcast_S512000_S512000x1_0 : (⟨S512000, .i32⟩ : BufTy).Contents (Elt F) → (⟨S512000x1, .i32⟩ : BufTy).Contents (Elt F)) v28
  have v30 := ((fun x i => Host.gather gather_S128000_S512000x1_S512000_n_0_n_n_0_1_1 x i) : (⟨S128000, .f32⟩ : BufTy).Contents (Elt F) → (⟨S512000x1, .i32⟩ : BufTy).Contents (Elt F) → (⟨S512000, .f32⟩ : BufTy).Contents (Elt F)) v16 v29
  have v31 := (mulf : (⟨S512000, .f32⟩ : BufTy).Contents (Elt F) → (⟨S512000, .f32⟩ : BufTy).Contents (Elt F) → (⟨S512000, .f32⟩ : BufTy).Contents (Elt F)) v23 v30
  v31

/-- The first layer from its product `v32` = x·W1: the product's rows gathered at the sources, each scaled by its edge's
    normalisation, added up at the targets, the bias row added, and the floor at zero. -/
def layer1 (v3 v6 : (⟨S512000, .i32⟩ : BufTy).Contents (Elt F)) (v31 : (⟨S512000, .f32⟩ : BufTy).Contents (Elt F)) (a5 : (⟨S256, .f32⟩ : BufTy).Contents (Elt F))
    (v32 : (⟨S128000x256, .f32⟩ : BufTy).Contents (Elt F)) : (⟨S128000x256, .f32⟩ : BufTy).Contents (Elt F) :=
  have c_7 : (⟨S_, .i32⟩ : BufTy).Contents (Elt F) := constantI S_ 32 0#32
  have v33 := (broadcastInDim S512000 ![] bcast_S_S512000 : (⟨S_, .i32⟩ : BufTy).Contents (Elt F) → (⟨S512000, .i32⟩ : BufTy).Contents (Elt F)) c_7
  have v34 := (cmpi .slt : (⟨S512000, .i32⟩ : BufTy).Contents (Elt F) → (⟨S512000, .i32⟩ : BufTy).Contents (Elt F) → (⟨S512000, .i1⟩ : BufTy).Contents (Elt F)) v3 v33
  have c_8 : (⟨S_, .i32⟩ : BufTy).Contents (Elt F) := constantI S_ 32 128000#32
  have v35 := (broadcastInDim S512000 ![] bcast_S_S512000 : (⟨S_, .i32⟩ : BufTy).Contents (Elt F) → (⟨S512000, .i32⟩ : BufTy).Contents (Elt F)) c_8
  have v36 := (addi : (⟨S512000, .i32⟩ : BufTy).Contents (Elt F) → (⟨S512000, .i32⟩ : BufTy).Contents (Elt F) → (⟨S512000, .i32⟩ : BufTy).Contents (Elt F)) v3 v35
  have v37 := (select : (⟨S512000, .i1⟩ : BufTy).Contents (Elt F) → (⟨S512000, .i32⟩ : BufTy).Contents (Elt F) → (⟨S512000, .i32⟩ : BufTy).Contents (Elt F) → (⟨S512000, .i32⟩ : BufTy).Contents (Elt F)) v34 v36 v3
  have v38 := (broadcastInDim S512000x1 ![0] bcast_S512000_S512000x1_0 : (⟨S512000, .i32⟩ : BufTy).Contents (Elt F) → (⟨S512000x1, .i32⟩ : BufTy).Contents (Elt F)) v37
  have v39 := ((fun x i => Host.gather gather_S128000x256_S512000x1_S512000x256_1_0_n_n_0_1_1256 x i) : (⟨S128000x256, .f32⟩ : BufTy).Contents (Elt F) → (⟨S512000x1, .i32⟩ : BufTy).Contents (Elt F) → (⟨S512000x256, .f32⟩ : BufTy).Contents (Elt F)) v32 v38
  have v40 := (broadcastInDim S512000x1 ![0] bcast_S512000_S512000x1_0 : (⟨S512000, .f32⟩ : BufTy).Contents (Elt F) → (⟨S512000x1, .f32⟩ : BufTy).Contents (Elt F)) v31
  have v41 := (broadcastInDim S512000x256 ![0, 1] bcast_S512000x1_S512000x256_0_1 : (⟨S512000x1, .f32⟩ : BufTy).Contents (Elt F) → (⟨S512000x256, .f32⟩ : BufTy).Contents (Elt F)) v40
  have v42 := (mulf : (⟨S512000x256, .f32⟩ : BufTy).Contents (Elt F) → (⟨S512000x256, .f32⟩ : BufTy).Contents (Elt F) → (⟨S512000x256, .f32⟩ : BufTy).Contents (Elt F)) v39 v41
  have cst_9 : (⟨S_, .f32⟩ : BufTy).Contents (Elt F) := constant S_ .f32 0x00000000#32
  have v43 := (broadcastInDim S128000x256 ![] bcast_S_S128000x256 : (⟨S_, .f32⟩ : BufTy).Contents (Elt F) → (⟨S128000x256, .f32⟩ : BufTy).Contents (Elt F)) cst_9
  have v44 := (broadcastInDim S512000x1 ![0] bcast_S512000_S512000x1_0 : (⟨S512000, .i32⟩ : BufTy).Contents (Elt F) → (⟨S512000x1, .i32⟩ : BufTy).Contents (Elt F)) v6
  have v45 := ((fun x i u => Host.scatterAdd scatter_S128000x256_S512000x1_S512000x256_1_0_0_1 x i u) : (⟨S128000x256, .f32⟩ : BufTy).Contents (Elt F) → (⟨S512000x1, .i32⟩ : BufTy).Contents (Elt F) → (⟨S512000x256, .f32⟩ : BufTy).Contents (Elt F) → (⟨S128000x256, .f32⟩ : BufTy).Contents (Elt F)) v43 v44 v42
  have v46 := (broadcastInDim S1x256 ![1] bcast_S256_S1x256_1 : (⟨S256, .f32⟩ : BufTy).Contents (Elt F) → (⟨S1x256, .f32⟩ : BufTy).Contents (Elt F)) a5
  have v47 := (broadcastInDim S128000x256 ![0, 1] bcast_S1x256_S128000x256_0_1 : (⟨S1x256, .f32⟩ : BufTy).Contents (Elt F) → (⟨S128000x256, .f32⟩ : BufTy).Contents (Elt F)) v46
  have v48 := (addf : (⟨S128000x256, .f32⟩ : BufTy).Contents (Elt F) → (⟨S128000x256, .f32⟩ : BufTy).Contents (Elt F) → (⟨S128000x256, .f32⟩ : BufTy).Contents (Elt F)) v45 v47
  have call1_cst : (⟨S_, .f32⟩ : BufTy).Contents (Elt F) := constant S_ .f32 0x00000000#32
  have call1_v0 : (⟨S128000x256, .f32⟩ : BufTy).Contents (Elt F) := broadcastInDim S128000x256 ![] bcast_S_S128000x256 call1_cst
  have v49 : (⟨S128000x256, .f32⟩ : BufTy).Contents (Elt F) := maximumf v48 call1_v0
  v49

/-- Everything after the second product `v50` = h·W2: gather at the sources, scale, add up at the targets, bias; the sum of
    the node rows of each image over the number of its nodes (at least 1); for each pair its two image rows side by
    side, contracted with the column `a8`, plus `a9`; and 1 / (1 + exp (−·)). -/
def tail (v3 v6 : (⟨S512000, .i32⟩ : BufTy).Contents (Elt F)) (v31 : (⟨S512000, .f32⟩ : BufTy).Contents (Elt F)) (a2 : (⟨S128000, .i32⟩ : BufTy).Contents (Elt F)) (a3 : (⟨S4096x2, .i32⟩ : BufTy).Contents (Elt F))
    (a7 : (⟨S128, .f32⟩ : BufTy).Contents (Elt F)) (a8 : (⟨S256x1, .f32⟩ : BufTy).Contents (Elt F)) (a9 : (⟨S1, .f32⟩ : BufTy).Contents (Elt F))
    (v50 : (⟨S128000x128, .f32⟩ : BufTy).Contents (Elt F)) : (⟨S4096x1, .f32⟩ : BufTy).Contents (Elt F) :=
  have c_10 : (⟨S_, .i32⟩ : BufTy).Contents (Elt F) := constantI S_ 32 0#32
  have v51 := (broadcastInDim S512000 ![] bcast_S_S512000 : (⟨S_, .i32⟩ : BufTy).Contents (Elt F) → (⟨S512000, .i32⟩ : BufTy).Contents (Elt F)) c_10
  have v52 := (cmpi .slt : (⟨S512000, .i32⟩ : BufTy).Contents (Elt F) → (⟨S512000, .i32⟩ : BufTy).Contents (Elt F) → (⟨S512000, .i1⟩ : BufTy).Contents (Elt F)) v3 v51
  have c_11 : (⟨S_, .i32⟩ : BufTy).Contents (Elt F) := constantI S_ 32 128000#32
  have v53 := (broadcastInDim S512000 ![] bcast_S_S512000 : (⟨S_, .i32⟩ : BufTy).Contents (Elt F) → (⟨S512000, .i32⟩ : BufTy).Contents (Elt F)) c_11
  have v54 := (addi : (⟨S512000, .i32⟩ : BufTy).Contents (Elt F) → (⟨S512000, .i32⟩ : BufTy).Contents (Elt F) → (⟨S512000, .i32⟩ : BufTy).Contents (Elt F)) v3 v53
  have v55 := (select : (⟨S512000, .i1⟩ : BufTy).Contents (Elt F) → (⟨S512000, .i32⟩ : BufTy).Contents (Elt F) → (⟨S512000, .i32⟩ : BufTy).Contents (Elt F) → (⟨S512000, .i32⟩ : BufTy).Contents (Elt F)) v52 v54 v3
  have v56 := (broadcastInDim S512000x1 ![0] bcast_S512000_S512000x1_0 : (⟨S512000, .i32⟩ : BufTy).Contents (Elt F) → (⟨S512000x1, .i32⟩ : BufTy).Contents (Elt F)) v55
  have v57 := ((fun x i => Host.gather gather_S128000x128_S512000x1_S512000x128_1_0_n_n_0_1_1128 x i) : (⟨S128000x128, .f32⟩ : BufTy).Contents (Elt F) → (⟨S512000x1, .i32⟩ : BufTy).Contents (Elt F) → (⟨S512000x128, .f32⟩ : BufTy).Contents (Elt F)) v50 v56
  have v58 := (broadcastInDim S512000x1 ![0] bcast_S512000_S512000x1_0 : (⟨S512000, .f32⟩ : BufTy).Contents (Elt F) → (⟨S512000x1, .f32⟩ : BufTy).Contents (Elt F)) v31
  have v59 := (broadcastInDim S512000x128 ![0, 1] bcast_S512000x1_S512000x128_0_1 : (⟨S512000x1, .f32⟩ : BufTy).Contents (Elt F) → (⟨S512000x128, .f32⟩ : BufTy).Contents (Elt F)) v58
  have v60 := (mulf : (⟨S512000x128, .f32⟩ : BufTy).Contents (Elt F) → (⟨S512000x128, .f32⟩ : BufTy).Contents (Elt F) → (⟨S512000x128, .f32⟩ : BufTy).Contents (Elt F)) v57 v59
  have cst_12 : (⟨S_, .f32⟩ : BufTy).Contents (Elt F) := constant S_ .f32 0x00000000#32
  have v61 := (broadcastInDim S128000x128 ![] bcast_S_S128000x128 : (⟨S_, .f32⟩ : BufTy).Contents (Elt F) → (⟨S128000x128, .f32⟩ : BufTy).Contents (Elt F)) cst_12
  have v62 := (broadcastInDim S512000x1 ![0] bcast_S512000_S512000x1_0 : (⟨S512000, .i32⟩ : BufTy).Contents (Elt F) → (⟨S512000x1, .i32⟩ : BufTy).Contents (Elt F)) v6
  have v63 := ((fun x i u => Host.scatterAdd scatter_S128000x128_S512000x1_S512000x128_1_0_0_1 x i u) : (⟨S128000x128, .f32⟩ : BufTy).Contents (Elt F) → (⟨S512000x1, .i32⟩ : BufTy).Contents (Elt F) → (⟨S512000x128, .f32⟩ : BufTy).Contents (Elt F) → (⟨S128000x128, .f32⟩ : BufTy).Contents (Elt F)) v61 v62 v60
  have v64 := (broadcastInDim S1x128 ![1] bcast_S128_S1x128_1 : (⟨S128, .f32⟩ : BufTy).Contents (Elt F) → (⟨S1x128, .f32⟩ : BufTy).Contents (Elt F)) a7
  have v65 := (broadcastInDim S128000x128 ![0, 1] bcast_S1x128_S128000x128_0_1 : (⟨S1x128, .f32⟩ : BufTy).Contents (Elt F) → (⟨S128000x128, .f32⟩ : BufTy).Contents (Elt F)) v64
  have v66 := (addf : (⟨S128000x128, .f32⟩ : BufTy).Contents (Elt F) → (⟨S128000x128, .f32⟩ : BufTy).Contents (Elt F) → (⟨S128000x128, .f32⟩ : BufTy).Contents (Elt F)) v63 v65
  have cst_13 : (⟨S_, .f32⟩ : BufTy).Contents (Elt F) := constant S_ .f32 0x00000000#32
  have v67 := (broadcastInDim S1000x128 ![] bcast_S_S1000x128 : (⟨S_, .f32⟩ : BufTy).Contents (Elt F) → (⟨S1000x128, .f32⟩ : BufTy).Contents (Elt F)) cst_13
  have v68 := (broadcastInDim S128000x1 ![0] bcast_S128000_S128000x1_0 : (⟨S128000, .i32⟩ : BufTy).Contents (Elt F) → (⟨S128000x1, .i32⟩ : BufTy).Contents (Elt F)) a2
  have v69 := ((fun x i u => Host.scatterAdd scatter_S1000x128_S128000x1_S128000x128_1_0_0_1 x i u) : (⟨S1000x128, .f32⟩ : BufTy).Contents (Elt F) → (⟨S128000x1, .i32⟩ : BufTy).Contents (Elt F) → (⟨S128000x128, .f32⟩ : BufTy).Contents (Elt F) → (⟨S1000x128, .f32⟩ : BufTy).Contents (Elt F)) v67 v68 v66
  have cst_14 : (⟨S_, .f32⟩ : BufTy).Contents (Elt F) := constant S_ .f32 0x3F800000#32
  have v70 := (broadcastInDim S128000 ![] bcast_S_S128000 : (⟨S_, .f32⟩ : BufTy).Contents (Elt F) → (⟨S128000, .f32⟩ : BufTy).Contents (Elt F)) cst_14
  have cst_15 : (⟨S_, .f32⟩ : BufTy).Contents (Elt F) := constant S_ .f32 0x00000000#32
  have v71 := (broadcastInDim S1000 ![] bcast_S_S1000 : (⟨S_, .f32⟩ : BufTy).Contents (Elt F) → (⟨S1000, .f32⟩ : BufTy).Contents (Elt F)) cst_15
  have v72 := (broadcastInDim S128000x1 ![0] bcast_S128000_S128000x1_0 : (⟨S128000, .i32⟩ : BufTy).Contents (Elt F) → (⟨S128000x1, .i32⟩ : BufTy).Contents (Elt F)) a2
  have v73 := ((fun x i u => Host.scatterAdd scatter_S1000_S128000x1_S128000_n_0_0_1 x i u) : (⟨S1000, .f32⟩ : BufTy).Contents (Elt F) → (⟨S128000x1, .i32⟩ : BufTy).Contents (Elt F) → (⟨S128000, .f32⟩ : BufTy).Contents (Elt F) → (⟨S1000, .f32⟩ : BufTy).Contents (Elt F)) v71 v72 v70
  have cst_16 : (⟨S_, .f32⟩ : BufTy).Contents (Elt F) := constant S_ .f32 0x3F800000#32
  have v74 := (broadcastInDim S1000 ![] bcast_S_S1000 : (⟨S_, .f32⟩ : BufTy).Contents (Elt F) → (⟨S1000, .f32⟩ : BufTy).Contents (Elt F)) cst_16
  have v75 := (maximumf : (⟨S1000, .f32⟩ : BufTy).Contents (Elt F) → (⟨S1000, .f32⟩ : BufTy).Contents (Elt F) → (⟨S1000, .f32⟩ : BufTy).Contents (Elt F)) v73 v74
  have v76 := (broadcastInDim S1000x1 ![0] bcast_S1000_S1000x1_0 : (⟨S1000, .f32⟩ : BufTy).Contents (Elt F) → (⟨S1000x1, .f32⟩ : BufTy).Contents (Elt F)) v75
  have v77 := (broadcastInDim S1000x128 ![0, 1] bcast_S1000x1_S1000x128_0_1 : (⟨S1000x1, .f32⟩ : BufTy).Contents (Elt F) → (⟨S1000x128, .f32⟩ : BufTy).Contents (Elt F)) v76
  have v78 := (Host.divf : (⟨S1000x128, .f32⟩ : BufTy).Contents (Elt F) → (⟨S1000x128, .f32⟩ : BufTy).Contents (Elt F) → (⟨S1000x128, .f32⟩ : BufTy).Contents (Elt F)) v69 v77
  have v79 := ((extractStridedSlice S4096x1 ![0, 0] · slices_S4096x2_S4096x1_0_0) : (⟨S4096x2, .i32⟩ : BufTy).Contents (Elt F) → (⟨S4096x1, .i32⟩ : BufTy).Contents (Elt F)) a3
  have v80 : (⟨S4096, .i32⟩ : BufTy).Contents (Elt F) := shapeCast S4096 v79 shapeCasts_S4096x1_S4096
  have c_17 : (⟨S_, .i32⟩ : BufTy).Contents (Elt F) := constantI S_ 32 0#32
  have v81 := (broadcastInDim S4096 ![] bcast_S_S4096 : (⟨S_, .i32⟩ : BufTy).Contents (Elt F) → (⟨S4096, .i32⟩ : BufTy).Contents (Elt F)) c_17
  have v82 := (cmpi .slt : (⟨S4096, .i32⟩ : BufTy).Contents (Elt F) → (⟨S4096, .i32⟩ : BufTy).Contents (Elt F) → (⟨S4096, .i1⟩ : BufTy).Contents (Elt F)) v80 v81
  have c_18 : (⟨S_, .i32⟩ : BufTy).Contents (Elt F) := constantI S_ 32 1000#32
  have v83 := (broadcastInDim S4096 ![] bcast_S_S4096 : (⟨S_, .i32⟩ : BufTy).Contents (Elt F) → (⟨S4096, .i32⟩ : BufTy).Contents (Elt F)) c_18
  have v84 := (addi : (⟨S4096, .i32⟩ : BufTy).Contents (Elt F) → (⟨S4096, .i32⟩ : BufTy).Contents (Elt F) → (⟨S4096, .i32⟩ : BufTy).Contents (Elt F)) v80 v83
  have v85 := (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) v82 v84 v80
  have v86 := (broadcastInDim S4096x1 ![0] bcast_S4096_S4096x1_0 : (⟨S4096, .i32⟩ : BufTy).Contents (Elt F) → (⟨S4096x1, .i32⟩ : BufTy).Contents (Elt F)) v85
  have v87 := ((fun x i => Host.gather gather_S1000x128_S4096x1_S4096x128_1_0_n_n_0_1_1128 x i) : (⟨S1000x128, .f32⟩ : BufTy).Contents (Elt F) → (⟨S4096x1, .i32⟩ : BufTy).Contents (Elt F) → (⟨S4096x128, .f32⟩ : BufTy).Contents (Elt F)) v78 v86
  have v88 := ((extractStridedSlice S4096x1 ![0, 1] · slices_S4096x2_S4096x1_0_1) : (⟨S4096x2, .i32⟩ : BufTy).Contents (Elt F) → (⟨S4096x1, .i32⟩ : BufTy).Contents (Elt F)) a3
  have v89 : (⟨S4096, .i32⟩ : BufTy).Contents (Elt F) := shapeCast S4096 v88 shapeCasts_S4096x1_S4096
  have c_19 : (⟨S_, .i32⟩ : BufTy).Contents (Elt F) := constantI S_ 32 0#32
  have v90 := (broadcastInDim S4096 ![] bcast_S_S4096 : (⟨S_, .i32⟩ : BufTy).Contents (Elt F) → (⟨S4096, .i32⟩ : BufTy).Contents (Elt F)) c_19
  have v91 := (cmpi .slt : (⟨S4096, .i32⟩ : BufTy).Contents (Elt F) → (⟨S4096, .i32⟩ : BufTy).Contents (Elt F) → (⟨S4096, .i1⟩ : BufTy).Contents (Elt F)) v89 v90
  have c_20 : (⟨S_, .i32⟩ : BufTy).Contents (Elt F) := constantI S_ 32 1000#32
  have v92 := (broadcastInDim S4096 ![] bcast_S_S4096 : (⟨S_, .i32⟩ : BufTy).Contents (Elt F) → (⟨S4096, .i32⟩ : BufTy).Contents (Elt F)) c_20
  have v93 := (addi : (⟨S4096, .i32⟩ : BufTy).Contents (Elt F) → (⟨S4096, .i32⟩ : BufTy).Contents (Elt F) → (⟨S4096, .i32⟩ : BufTy).Contents (Elt F)) v89 v92
  have v94 := (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) v91 v93 v89
  have v95 := (broadcastInDim S4096x1 ![0] bcast_S4096_S4096x1_0 : (⟨S4096, .i32⟩ : BufTy).Contents (Elt F) → (⟨S4096x1, .i32⟩ : BufTy).Contents (Elt F)) v94
  have v96 := ((fun x i => Host.gather gather_S1000x128_S4096x1_S4096x128_1_0_n_n_0_1_1128 x i) : (⟨S1000x128, .f32⟩ : BufTy).Contents (Elt F) → (⟨S4096x1, .i32⟩ : BufTy).Contents (Elt F) → (⟨S4096x128, .f32⟩ : BufTy).Contents (Elt F)) v78 v95
  have v97 := ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)) v87 v96
  have v98 := ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)) v97 a8
  have v99 := (broadcastInDim S1x1 ![1] bcast_S1_S1x1_1 : (⟨S1, .f32⟩ : BufTy).Contents (Elt F) → (⟨S1x1, .f32⟩ : BufTy).Contents (Elt F)) a9
  have v100 := (broadcastInDim S4096x1 ![0, 1] bcast_S1x1_S4096x1_0_1 : (⟨S1x1, .f32⟩ : BufTy).Contents (Elt F) → (⟨S4096x1, .f32⟩ : BufTy).Contents (Elt F)) v99
  have v101 := (addf : (⟨S4096x1, .f32⟩ : BufTy).Contents (Elt F) → (⟨S4096x1, .f32⟩ : BufTy).Contents (Elt F) → (⟨S4096x1, .f32⟩ : BufTy).Contents (Elt F)) v98 v100
  have v102 := (Host.negf : (⟨S4096x1, .f32⟩ : BufTy).Contents (Elt F) → (⟨S4096x1, .f32⟩ : BufTy).Contents (Elt F)) v101
  have v103 := (Host.exp : (⟨S4096x1, .f32⟩ : BufTy).Contents (Elt F) → (⟨S4096x1, .f32⟩ : BufTy).Contents (Elt F)) v102
  have cst_21 : (⟨S_, .f32⟩ : BufTy).Contents (Elt F) := constant S_ .f32 0x3F800000#32
  have v104 := (broadcastInDim S4096x1 ![] bcast_S_S4096x1 : (⟨S_, .f32⟩ : BufTy).Contents (Elt F) → (⟨S4096x1, .f32⟩ : BufTy).Contents (Elt F)) cst_21
  have v105 := (addf : (⟨S4096x1, .f32⟩ : BufTy).Contents (Elt F) → (⟨S4096x1, .f32⟩ : BufTy).Contents (Elt F) → (⟨S4096x1, .f32⟩ : BufTy).Contents (Elt F)) v104 v103
  have cst_22 : (⟨S_, .f32⟩ : BufTy).Contents (Elt F) := constant S_ .f32 0x3F800000#32
  have v106 := (broadcastInDim S4096x1 ![] bcast_S_S4096x1 : (⟨S_, .f32⟩ : BufTy).Contents (Elt F) → (⟨S4096x1, .f32⟩ : BufTy).Contents (Elt F)) cst_22
  have v107 := (Host.divf : (⟨S4096x1, .f32⟩ : BufTy).Contents (Elt F) → (⟨S4096x1, .f32⟩ : BufTy).Contents (Elt F) → (⟨S4096x1, .f32⟩ : BufTy).Contents (Elt F)) v106 v105
  v107

end Cert.KernelIdeal.Stages

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibMatrixProduct.lean ====
/-
  The product of two matrices of extended reals.

  Entry (p, o) of the product of an [n, k] matrix X with a [k, d] matrix W is the sum over j of X(p, j) · W(j, o); on
  the extended reals that sum is defined whatever the entries are, so no finiteness enters.  The host's contraction
  with the dimension numbers "axis 1 of the left against axis 0 of the right, no batch axis" is this product, entry
  by entry: a kernel's blocked matrix-unit multiplication and a reference's host contraction are both stated with it.
  General in the extents and in the operands' float formats; it builds on the entry-wise reading of a plain contraction
  (module LibPlainDot), which comes with it.
-/
import proofs.«152697_j43430709297955_1_alg».proof.Proof.LibPlainDot

noncomputable section

namespace Cert.LibMatrixProduct

open Idealize.ShloMosaic Idealize.ShloMosaic.ValueIdx

/-- The product X · W, entry by entry. -/
def mprod {n k d : ℕ} (X : (⟨2, ![n, k]⟩ : Shape).Idx → EReal) (W : (⟨2, ![k, d]⟩ : Shape).Idx → EReal) :
    (⟨2, ![n, d]⟩ : Shape).Idx → EReal :=
  fun i => ∑ j : Fin k, X (ix2 (i 0) j) * W (ix2 j (i 1))

/-- Its entry at the coordinates (p, o). -/
theorem mprod_apply {n k d : ℕ} (X : (⟨2, ![n, k]⟩ : Shape).Idx → EReal) (W : (⟨2, ![k, d]⟩ : Shape).Idx → EReal)
    (p : Fin n) (o : Fin d) : mprod X W (ix2 p o) = ∑ j : Fin k, X (ix2 p j) * W (ix2 j o) := rfl

/-- The host's plain contraction of an [n, k] with a [k, d] matrix is their product, for any record with those
    dimension numbers and operands of any float formats. -/
theorem dotGeneral_eq_mprod {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) :
    Host.dotGeneral (F := Ideal) D prec lhs rhs = mprod lhs rhs := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single lhs rhs p o

end Cert.LibMatrixProduct

end
-- ==== Proof.Products.lean ====
/-
  Each matrix-unit region leaves the whole product in its output array.

  A region walks its left array in 32 blocks of 4000 rows; at each point its body loads the block and the whole right
  array, multiplies them on the matrix unit into a zero accumulator and stores the result over the output's block of
  the same rows.  On the extended reals the changes of float format in front of the matrix unit are the identity and
  the matrix unit's result is the plain sum over the contracted index, so what point t writes back is rows
  4000·t … 4000·t + 3999 of the product of the two whole arrays; the 32 blocks cover all 128000 rows, each written once,
  so after the region the output array IS the product.  Stated for the arrays as the region finds them (`V`), whatever
  they are.
-/
import proofs.«152697_j43430709297955_1_alg».proof.Proof.Gen.KernelIdeal.Frame
import proofs.«152697_j43430709297955_1_alg».proof.Proof.Gen.KernelIdeal.Points
import proofs.«152697_j43430709297955_1_alg».proof.Proof.LibMatrixProduct
import Idealize.ShloMosaic.Lib.Pipeline.Value
import Idealize.ShloMosaic.Lib.ValueIdx

set_option maxRecDepth 16384

noncomputable section

namespace Cert.KernelIdeal.Products

open Idealize.ShloMosaic Idealize.ShloMosaic.TcCoe Idealize.ShloMosaic.ValueIdx Idealize.SL.Sem
open Cert.KernelIdeal Cert.KernelIdeal.Facts₀ Cert.KernelIdeal.Facts Cert.KernelIdeal.Gen Cert.LibMatrixProduct
open Idealize.ShloMosaic.Pipeline (Dat)

/-- The zero offsets of a whole-block access, as a constant function. -/
theorem hz : (![0, 0] : Fin 2 → Nat) = fun _ => 0 := funext fun a => by fin_cases a <;> rfl

/-! ## Region 0: the 4000-row blocks of `main_arg0` times the whole `main_arg4`, written back into `main_v32` -/

section Region0

variable (V : (c : Dev nD) → (b : Ref sig .tc) → Buf (Elt Ideal) ((c : Thread nD τ).loc b))

/-- One entry of the body's result: row `p` of the left block against column `o` of the right one (the changes of float
    format in front of the matrix unit are the identity on the extended reals; the accumulator is the zero splat). -/
theorem pay0 (x0 : Vec Ideal S4000x256 .f32) (x1 : Vec Ideal S256x256 .f32) (p : Fin 4000) (o : Fin 256) :
    k0_pay1 (F := Ideal) x0 x1 (ix2 p o) = ∑ j : Fin 256, x0 (ix2 p j) * x1 (ix2 j o) := by
  refine (Cert.LibPlainDot.matmul_zero_apply dot_S4000x256_S256x256_S4000x256_1_0_0_1_n_n rfl rfl rfl rfl rfl rfl none
    (truncf (F := Ideal) .bf16 x0) (truncf (F := Ideal) .bf16 x1) p o).trans ?_
  rfl

/-- The printed index maps over the grid's 32 points: the left and the output window move down their arrays one block
    of rows per point, the right window stays on its one block. -/
theorem idx0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s left block is row `t · 4000 + p` of the left array. -/
theorem blk0_left (c : Dev nD) (t : Fin cfg0.N) (p : Fin 4000) (k : Fin 256) (r : Fin 128000)
    (hr : r.val = t.val * 4000 + p.val) :
    iblk0 V c 0 t (ix2 p k) = V c main_arg0 (ix2 r k) := by
  obtain ⟨e0, e1, -, -, -, -⟩ := idx0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 256 + 1 * k.val = k.val; omega

/-- Every point's right block is the whole right array. -/
theorem blk0_right (c : Dev nD) (t : Fin cfg0.N) (k : Fin 256) (o : Fin 256) :
    iblk0 V c 1 t (ix2 k o) = V c main_arg4 (ix2 k o) := by
  obtain ⟨-, -, e2, e3, -, -⟩ := idx0 t
  show V c main_arg4 (((cfg0.win 1).blk t).view.emb (ix2 k o)) = V c main_arg4 (ix2 k o)
  refine congrArg _ (funext fun a => Fin.ext ?_)
  match a with
  | ⟨0, _⟩ => show win0_1.index t (0 : Fin 2) * 256 + 1 * k.val = k.val; omega
  | ⟨1, _⟩ => show win0_1.index t (1 : Fin 2) * 256 + 1 * o.val = o.val; omega

/-- What point `t` writes back is its block of rows of the whole product. -/
theorem flushed0 (c : Dev nD) (t : Fin cfg0.N) :
    (dat0 V c).flushed 2 t = ((cfg0.win 2).blk t).view.read (Elt Ideal) (mprod (V c main_arg0) (V c main_arg4)) := by
  show (cfg0.win 2).cut (grid0.coords t) ((dat0 V c).after 2 t) = _
  rw [after0_2]
  unfold out0_2
  rw [View.canon_unit_zero hz]
  simp only [View.ld_unit_zero (S := S4000x256) hz, View.ld_unit_zero (S := S256x256) hz]
  obtain ⟨-, -, -, -, e4, e5⟩ := idx0 t
  have ht : t.val < 32 := lt_of_lt_of_eq t.isLt N_0
  funext j
  have hp : (j 0).val < 4000 := (j 0).isLt
  show k0_pay1 (iblk0 V c 0 t) (iblk0 V c 1 t) j = mprod (V c main_arg0) (V c main_arg4) (((cfg0.win 2).blk t).view.emb j)
  have hj : j = ix2 (j 0) (j 1) := eq_ix2 (n0 := 4000) (n1 := 256) j
  have hi : ((cfg0.win 2).blk t).view.emb j = ix2 (⟨t.val * 4000 + (j 0).val, by omega⟩ : Fin 128000) (j 1) := by
    funext a; apply Fin.ext
    match a with
    | ⟨0, _⟩ => show win0_2.index t (0 : Fin 2) * 4000 + 1 * (j 0).val = t.val * 4000 + (j 0).val; omega
    | ⟨1, _⟩ => show win0_2.index t (1 : Fin 2) * 256 + 1 * (j 1).val = (j 1).val; omega
  refine (congrArg (k0_pay1 (iblk0 V c 0 t) (iblk0 V c 1 t)) hj).trans ?_
  refine (pay0 _ _ (j 0) (j 1)).trans ?_
  refine Eq.trans ?_ (congrArg (mprod (V c main_arg0) (V c main_arg4)) hi.symm)
  refine Eq.trans ?_ (mprod_apply _ _ _ _).symm
  exact Finset.sum_congr rfl fun k _ => by
    rw [blk0_left V c t (j 0) k ⟨t.val * 4000 + (j 0).val, by omega⟩ rfl, blk0_right V c t k (j 1)]

/-- An index of the output array is in point `t`'s block iff each coordinate is in the block's range on its axis. -/
theorem mem_blk0 (t : Fin cfg0.N) (i : S128000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v32).slice (win0_2.rect t)).set ↔ _
  rw [View.set_slice_whole, Rect.mem_set_unit]
  exact Iff.rfl

/-- Row `r` of the output array is in the block of point `r / 4000`: the 32 blocks cover the array. -/
theorem cover0 (i : S128000x256.Idx) :
    ∃ t : Fin cfg0.N, (cfg0.win 2).flush t = true ∧ i ∈ ((cfg0.win 2).blk t).view.set := by
  have hi0 : (i 0).val < 128000 := (i 0).isLt
  have hi1 : (i 1).val < 256 := (i 1).isLt
  have hN : (i 0).val / 4000 < cfg0.N := lt_of_lt_of_eq (by omega : (i 0).val / 4000 < 32) N_0.symm
  obtain ⟨-, -, -, -, e4, e5⟩ := idx0 ⟨(i 0).val / 4000, hN⟩
  have e4' : win0_2.index ⟨(i 0).val / 4000, hN⟩ (0 : Fin 2) = (i 0).val / 4000 := e4
  refine ⟨⟨(i 0).val / 4000, hN⟩, flush0_2 _, ?_⟩
  rw [mem_blk0]
  intro a
  match a with
  | ⟨0, _⟩ => show win0_2.index ⟨(i 0).val / 4000, hN⟩ (0 : Fin 2) * 4000 ≤ (i 0).val ∧ (i 0).val < win0_2.index ⟨(i 0).val / 4000, hN⟩ (0 : Fin 2) * 4000 + 4000; omega
  | ⟨1, _⟩ => show win0_2.index ⟨(i 0).val / 4000, hN⟩ (1 : Fin 2) * 256 ≤ (i 1).val ∧ (i 1).val < win0_2.index ⟨(i 0).val / 4000, hN⟩ (1 : Fin 2) * 256 + 256; omega

/-- After the region its output array is the whole product of the two arrays it was entered with. -/
theorem product0 (c : Dev nD) : (dat0 V c).arrAt 2 cfg0.N = mprod (V c main_arg0) (V c main_arg4) :=
  (dat0 V c).arrAt_eq_of_cover 2 _ (fun t _ => flushed0 V c t) (cover0)

end Region0

/-! ## Region 1: the 4000-row blocks of `main_v49` times the whole `main_arg6`, written back into `main_v50` -/

section Region1

variable (V : (c : Dev nD) → (b : Ref sig .tc) → Buf (Elt Ideal) ((c : Thread nD τ).loc b))

/-- One entry of the body's result: row `p` of the left block against column `o` of the right one (the changes of float
    format in front of the matrix unit are the identity on the extended reals, and so is the reshape to the same shape; the accumulator is the zero splat). -/
theorem pay1 (x0 : Vec Ideal S4000x256 .f32) (x1 : Vec Ideal S256x128 .f32) (p : Fin 4000) (o : Fin 128) :
    k1_pay1 (F := Ideal) x0 x1 (ix2 p o) = ∑ j : Fin 256, x0 (ix2 p j) * x1 (ix2 j o) := by
  refine (Cert.LibPlainDot.matmul_zero_apply dot_S4000x256_S256x128_S4000x128_1_0_0_1_n_n rfl rfl rfl rfl rfl rfl none
    (truncf (F := Ideal) .bf16 (shapeCast S4000x256 x0 Facts₀.shapeCasts_S4000x256_S4000x256)) (truncf (F := Ideal) .bf16 x1) p o).trans ?_
  rw [shapeCast_self]
  rfl

/-- The printed index maps over the grid's 32 points: the left and the output window move down their arrays one block
    of rows per point, the right window stays on its one block. -/
theorem idx1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of point `t`'s left block is row `t · 4000 + p` of the left array. -/
theorem blk1_left (c : Dev nD) (t : Fin cfg1.N) (p : Fin 4000) (k : Fin 256) (r : Fin 128000)
    (hr : r.val = t.val * 4000 + p.val) :
    iblk1 V c 0 t (ix2 p k) = V c main_v49 (ix2 r k) := by
  obtain ⟨e0, e1, -, -, -, -⟩ := idx1 t
  show V c main_v49 (((cfg1.win 0).blk t).view.emb (ix2 p k)) = V c main_v49 (ix2 r k)
  refine congrArg _ (funext fun a => Fin.ext ?_)
  match a with
  | ⟨0, _⟩ => show win1_0.index t (0 : Fin 2) * 4000 + 1 * p.val = r.val; omega
  | ⟨1, _⟩ => show win1_0.index t (1 : Fin 2) * 256 + 1 * k.val = k.val; omega

/-- Every point's right block is the whole right array. -/
theorem blk1_right (c : Dev nD) (t : Fin cfg1.N) (k : Fin 256) (o : Fin 128) :
    iblk1 V c 1 t (ix2 k o) = V c main_arg6 (ix2 k o) := by
  obtain ⟨-, -, e2, e3, -, -⟩ := idx1 t
  show V c main_arg6 (((cfg1.win 1).blk t).view.emb (ix2 k o)) = V c main_arg6 (ix2 k o)
  refine congrArg _ (funext fun a => Fin.ext ?_)
  match a with
  | ⟨0, _⟩ => show win1_1.index t (0 : Fin 2) * 256 + 1 * k.val = k.val; omega
  | ⟨1, _⟩ => show win1_1.index t (1 : Fin 2) * 128 + 1 * o.val = o.val; omega

/-- What point `t` writes back is its block of rows of the whole product. -/
theorem flushed1 (c : Dev nD) (t : Fin cfg1.N) :
    (dat1 V c).flushed 2 t = ((cfg1.win 2).blk t).view.read (Elt Ideal) (mprod (V c main_v49) (V c main_arg6)) := by
  show (cfg1.win 2).cut (grid1.coords t) ((dat1 V c).after 2 t) = _
  rw [after1_2]
  unfold out1_2
  rw [View.canon_unit_zero hz]
  simp only [View.ld_unit_zero (S := S4000x256) hz, View.ld_unit_zero (S := S256x128) hz]
  obtain ⟨-, -, -, -, e4, e5⟩ := idx1 t
  have ht : t.val < 32 := lt_of_lt_of_eq t.isLt N_1
  funext j
  have hp : (j 0).val < 4000 := (j 0).isLt
  show k1_pay1 (iblk1 V c 0 t) (iblk1 V c 1 t) j = mprod (V c main_v49) (V c main_arg6) (((cfg1.win 2).blk t).view.emb j)
  have hj : j = ix2 (j 0) (j 1) := eq_ix2 (n0 := 4000) (n1 := 128) j
  have hi : ((cfg1.win 2).blk t).view.emb j = ix2 (⟨t.val * 4000 + (j 0).val, by omega⟩ : Fin 128000) (j 1) := by
    funext a; apply Fin.ext
    match a with
    | ⟨0, _⟩ => show win1_2.index t (0 : Fin 2) * 4000 + 1 * (j 0).val = t.val * 4000 + (j 0).val; omega
    | ⟨1, _⟩ => show win1_2.index t (1 : Fin 2) * 128 + 1 * (j 1).val = (j 1).val; omega
  refine (congrArg (k1_pay1 (iblk1 V c 0 t) (iblk1 V c 1 t)) hj).trans ?_
  refine (pay1 _ _ (j 0) (j 1)).trans ?_
  refine Eq.trans ?_ (congrArg (mprod (V c main_v49) (V c main_arg6)) hi.symm)
  refine Eq.trans ?_ (mprod_apply _ _ _ _).symm
  exact Finset.sum_congr rfl fun k _ => by
    rw [blk1_left V c t (j 0) k ⟨t.val * 4000 + (j 0).val, by omega⟩ rfl, blk1_right V c t k (j 1)]

/-- An index of the output array is in point `t`'s block iff each coordinate is in the block's range on its axis. -/
theorem mem_blk1 (t : Fin cfg1.N) (i : S128000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v50).slice (win1_2.rect t)).set ↔ _
  rw [View.set_slice_whole, Rect.mem_set_unit]
  exact Iff.rfl

/-- Row `r` of the output array is in the block of point `r / 4000`: the 32 blocks cover the array. -/
theorem cover1 (i : S128000x128.Idx) :
    ∃ t : Fin cfg1.N, (cfg1.win 2).flush t = true ∧ i ∈ ((cfg1.win 2).blk t).view.set := by
  have hi0 : (i 0).val < 128000 := (i 0).isLt
  have hi1 : (i 1).val < 128 := (i 1).isLt
  have hN : (i 0).val / 4000 < cfg1.N := lt_of_lt_of_eq (by omega : (i 0).val / 4000 < 32) N_1.symm
  obtain ⟨-, -, -, -, e4, e5⟩ := idx1 ⟨(i 0).val / 4000, hN⟩
  have e4' : win1_2.index ⟨(i 0).val / 4000, hN⟩ (0 : Fin 2) = (i 0).val / 4000 := e4
  refine ⟨⟨(i 0).val / 4000, hN⟩, flush1_2 _, ?_⟩
  rw [mem_blk1]
  intro a
  match a with
  | ⟨0, _⟩ => show win1_2.index ⟨(i 0).val / 4000, hN⟩ (0 : Fin 2) * 4000 ≤ (i 0).val ∧ (i 0).val < win1_2.index ⟨(i 0).val / 4000, hN⟩ (0 : Fin 2) * 4000 + 4000; omega
  | ⟨1, _⟩ => show win1_2.index ⟨(i 0).val / 4000, hN⟩ (1 : Fin 2) * 128 ≤ (i 1).val ∧ (i 1).val < win1_2.index ⟨(i 0).val / 4000, hN⟩ (1 : Fin 2) * 128 + 128; omega

/-- After the region its output array is the whole product of the two arrays it was entered with. -/
theorem product1 (c : Dev nD) : (dat1 V c).arrAt 2 cfg1.N = mprod (V c main_v49) (V c main_arg6) :=
  (dat1 V c).arrAt_eq_of_cover 2 _ (fun t _ => flushed1 V c t) (cover1)

end Region1

end Cert.KernelIdeal.Products

end
-- ==== Proof.LibConcatCongr.lean ====
/-
  A TWO-PIECE CONCATENATION RESPECTS EQUALITY OF ITS PIECES, in the form of a congruence rule for the simplifier. Each
  piece of a concatenation is the second component of a pair whose first component is the piece's shape, so a
  rewriting pass does not enter it on its own; with this rule it does, and a chain of host operations that ends in a
  concatenation is read in one pass.
-/
import Idealize.ShloMosaic.PureOps.ShapeOps

namespace Cert.LibConcatCongr

open Idealize.ShloMosaic

/-- Two pieces joined along an axis: equal pieces give equal joins. (Not tagged here: a module that wants the
    simplifier to use it says so locally.) -/
theorem concatenate_pair_congr {α : Type} {t s₁ s₂ : Shape} (a : Fin t.rank) (x₁ x₁' : s₁.Idx → α)
    (x₂ x₂' : s₂.Idx → α) (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.LibTypedRefs.lean ====
/-
  A typed tensor reference moves a value between the value's own type and the type its buffer is declared with; the two
  moves at one buffer undo each other, whatever the proofs the two typed references carry.
-/
import Idealize.ShloMosaic.Lib.StableHlo

noncomputable section

namespace Cert.LibTypedRefs

open Idealize.ShloMosaic Idealize.ShloMosaic.StableHlo

/-- Reading back through a typed reference what was written through a typed reference to the same buffer gives the value
    written. -/
theorem ofBuf_toBuf {sig : RefSig} {Val : EltTy → Type} {T : BufTy} (r : Ref sig .tc) (h h' : r.ty = T)
    (a a' : r.space ≠ .host) (b b' : r.isScoped = false) (u : T.Contents Val) :
    (TRef.of r h a b).ofBuf ((TRef.of r h' a' b').toBuf u) = u := by
  subst h; rfl

end Cert.LibTypedRefs

end
-- ==== Proof.Fold.lean ====
/-
  The kernel program's buffers at the boundaries of its segments, read at the shared host stages.

  The fold of the buffer contents through @main (the generated `W0` … `W8`) is read here at the few buffers each
  segment needs from the ones before it.  When the first region is entered the edge tables and the normalisation are the
  stage functions of argument 1 and every argument buffer is as launched; a region changes only its output array, which
  it leaves at the product of its two input arrays (module Products); the stretch between the regions computes layer 1 of
  the first product and writes none of the tables; the last stretch computes the tail of the second product.  Walking
  back from the result buffer gives the kernel's result as

      tail src dst norm a2 a3 a7 a8 a9 ((layer1 src dst norm a5 (x · W1)) · W2)

  with src, dst, norm the stage functions of argument 1, x = argument 0, W1 = argument 4, W2 = argument 6.
-/
import proofs.«152697_j43430709297955_1_alg».proof.Proof.Gen.KernelIdeal.Frame
import proofs.«152697_j43430709297955_1_alg».proof.Proof.Stages
import proofs.«152697_j43430709297955_1_alg».proof.Proof.Products
import proofs.«152697_j43430709297955_1_alg».proof.Proof.LibConcatCongr
import proofs.«152697_j43430709297955_1_alg».proof.Proof.LibTypedRefs
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Stages Cert.KernelIdeal.Products Cert.LibMatrixProduct

variable (m : (ℓ : Loc nD τ sig) → Buf (Elt Ideal) ℓ) (ρ : Dev nD → PrngReg) (c : Dev nD)

-- the pieces of a two-piece concatenation (the edge tables; the two image rows of a pair) are read by the same pass as the rest
attribute [local congr] Cert.LibConcatCongr.concatenate_pair_congr

/-- Reads a buffer after a stretch of host operations: one pass through the operations, each result buffer at its
    operation's value of its operands and every other buffer as before; then the transports that an inlined function's
    typed references leave around its values, which are identities (each buffer's declared type is its value's). -/
local macro "read_back" : tactic =>
  `(tactic| (after_results_simp <;> try simp only [Cert.LibTypedRefs.ofBuf_toBuf, cast_eq]))

/-! ## When the first region is entered (after the first three stretches) -/

/-- At the first region's entry: the source table. -/
theorem entry_src : W3 m ρ c (Proc.devRef .tc main_v3) = (edgeSrc (m ((c : Thread nD τ).loc main_arg1))) := by
  show StableHlo.after hostOps0_2 (StableHlo.after hostOps0_1 (StableHlo.after hostOps0 (W0 m ρ c))) (Proc.devRef .tc main_v3) = _
  simp only [hostOps0_2, hostOps0_1, hostOps0]
  read_back <;> rfl

/-- At the first region's entry: the target table. -/
theorem entry_dst : W3 m ρ c (Proc.devRef .tc main_v6) = (edgeDst (m ((c : Thread nD τ).loc main_arg1))) := by
  show StableHlo.after hostOps0_2 (StableHlo.after hostOps0_1 (StableHlo.after hostOps0 (W0 m ρ c))) (Proc.devRef .tc main_v6) = _
  simp only [hostOps0_2, hostOps0_1, hostOps0]
  read_back <;> rfl

set_option maxHeartbeats 4000000 in
/-- At the first region's entry: the edges' normalisation. -/
theorem entry_norm : W3 m ρ c (Proc.devRef .tc main_v31) = (edgeNorm (edgeSrc (m ((c : Thread nD τ).loc main_arg1))) (edgeDst (m ((c : Thread nD τ).loc main_arg1)))) := by
  show StableHlo.after hostOps0_2 (StableHlo.after hostOps0_1 (StableHlo.after hostOps0 (W0 m ρ c))) (Proc.devRef .tc main_v31) = _
  simp only [hostOps0_2, hostOps0_1, hostOps0]
  read_back <;> rfl

/-- At the first region's entry: argument 2. -/
theorem entry_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  simp only [hostOps0_2, hostOps0_1, hostOps0]
  read_back <;> rfl

/-- At the first region's entry: argument 3. -/
theorem entry_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  simp only [hostOps0_2, hostOps0_1, hostOps0]
  read_back <;> rfl

/-- At the first region's entry: argument 5. -/
theorem entry_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  simp only [hostOps0_2, hostOps0_1, hostOps0]
  read_back <;> rfl

/-- At the first region's entry: argument 6. -/
theorem entry_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  simp only [hostOps0_2, hostOps0_1, hostOps0]
  read_back <;> rfl

/-- At the first region's entry: argument 7. -/
theorem entry_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  simp only [hostOps0_2, hostOps0_1, hostOps0]
  read_back <;> rfl

/-- At the first region's entry: argument 8. -/
theorem entry_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  simp only [hostOps0_2, hostOps0_1, hostOps0]
  read_back <;> rfl

/-- At the first region's entry: argument 9. -/
theorem entry_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  simp only [hostOps0_2, hostOps0_1, hostOps0]
  read_back <;> rfl

/-- At the first region's entry: argument 0 (the node features). -/
theorem entry_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0_2, hostOps0_1, hostOps0]
  read_back <;> rfl

/-- At the first region's entry: argument 4 (the first weight matrix). -/
theorem entry_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  simp only [hostOps0_2, hostOps0_1, hostOps0]
  read_back <;> rfl

/-! ## After the first region: its output array is the first product, nothing else has changed -/

/-- The first region leaves x · W1 in its output array. -/
theorem mid_product : W4 m ρ c (Proc.devRef .tc main_v32) = (mprod (m ((c : Thread nD τ).loc main_arg0)) (m ((c : Thread nD τ).loc main_arg4))) := by
  refine (W4_arr m ρ c 2).trans ((product0 (V3 m ρ) c).trans ?_)
  show mprod (W3 m ρ c (Proc.devRef .tc main_arg0)) (W3 m ρ c (Proc.devRef .tc main_arg4)) = _
  rw [entry_arg0 m ρ c, entry_arg4 m ρ c]

/-- After the first region: the source table, as before it. -/
theorem mid_src : W4 m ρ c (Proc.devRef .tc main_v3) = (edgeSrc (m ((c : Thread nD τ).loc main_arg1))) :=
  (W4_of_ne m ρ c main_v3 (by decide)).trans (entry_src m ρ c)

/-- After the first region: the target table, as before it. -/
theorem mid_dst : W4 m ρ c (Proc.devRef .tc main_v6) = (edgeDst (m ((c : Thread nD τ).loc main_arg1))) :=
  (W4_of_ne m ρ c main_v6 (by decide)).trans (entry_dst m ρ c)

/-- After the first region: the edges' normalisation, as before it. -/
theorem mid_norm : W4 m ρ c (Proc.devRef .tc main_v31) = (edgeNorm (edgeSrc (m ((c : Thread nD τ).loc main_arg1))) (edgeDst (m ((c : Thread nD τ).loc main_arg1)))) :=
  (W4_of_ne m ρ c main_v31 (by decide)).trans (entry_norm m ρ c)

/-- After the first region: argument 2, as before it. -/
theorem mid_arg2 : W4 m ρ c (Proc.devRef .tc main_arg2) = (m ((c : Thread nD τ).loc main_arg2)) :=
  (W4_of_ne m ρ c main_arg2 (by decide)).trans (entry_arg2 m ρ c)

/-- After the first region: argument 3, as before it. -/
theorem mid_arg3 : W4 m ρ c (Proc.devRef .tc main_arg3) = (m ((c : Thread nD τ).loc main_arg3)) :=
  (W4_of_ne m ρ c main_arg3 (by decide)).trans (entry_arg3 m ρ c)

/-- After the first region: argument 5, as before it. -/
theorem mid_arg5 : W4 m ρ c (Proc.devRef .tc main_arg5) = (m ((c : Thread nD τ).loc main_arg5)) :=
  (W4_of_ne m ρ c main_arg5 (by decide)).trans (entry_arg5 m ρ c)

/-- After the first region: argument 6, as before it. -/
theorem mid_arg6 : W4 m ρ c (Proc.devRef .tc main_arg6) = (m ((c : Thread nD τ).loc main_arg6)) :=
  (W4_of_ne m ρ c main_arg6 (by decide)).trans (entry_arg6 m ρ c)

/-- After the first region: argument 7, as before it. -/
theorem mid_arg7 : W4 m ρ c (Proc.devRef .tc main_arg7) = (m ((c : Thread nD τ).loc main_arg7)) :=
  (W4_of_ne m ρ c main_arg7 (by decide)).trans (entry_arg7 m ρ c)

/-- After the first region: argument 8, as before it. -/
theorem mid_arg8 : W4 m ρ c (Proc.devRef .tc main_arg8) = (m ((c : Thread nD τ).loc main_arg8)) :=
  (W4_of_ne m ρ c main_arg8 (by decide)).trans (entry_arg8 m ρ c)

/-- After the first region: argument 9, as before it. -/
theorem mid_arg9 : W4 m ρ c (Proc.devRef .tc main_arg9) = (m ((c : Thread nD τ).loc main_arg9)) :=
  (W4_of_ne m ρ c main_arg9 (by decide)).trans (entry_arg9 m ρ c)

/-! ## When the second region is entered (after the two stretches between the regions) -/

set_option maxHeartbeats 4000000 in
/-- The stretch between the regions computes layer 1 of the first product. -/
theorem entry1_hidden : W6 m ρ c (Proc.devRef .tc main_v49) = (layer1 (edgeSrc (m ((c : Thread nD τ).loc main_arg1))) (edgeDst (m ((c : Thread nD τ).loc main_arg1))) (edgeNorm (edgeSrc (m ((c : Thread nD τ).loc main_arg1))) (edgeDst (m ((c : Thread nD τ).loc main_arg1)))) (m ((c : Thread nD τ).loc main_arg5)) (mprod (m ((c : Thread nD τ).loc main_arg0)) (m ((c : Thread nD τ).loc main_arg4)))) := by
  show StableHlo.after hostOps1_1 (StableHlo.after hostOps1 (W4 m ρ c)) (Proc.devRef .tc main_v49) = _
  simp only [hostOps1_1, hostOps1]
  read_back
  rw [mid_src m ρ c, mid_dst m ρ c, mid_norm m ρ c, mid_arg5 m ρ c, mid_product m ρ c]
  rfl

/-- At the second region's entry: the source table, untouched by the stretch between the regions. -/
theorem entry1_src : W6 m ρ c (Proc.devRef .tc main_v3) = (edgeSrc (m ((c : Thread nD τ).loc main_arg1))) := by
  show StableHlo.after hostOps1_1 (StableHlo.after hostOps1 (W4 m ρ c)) (Proc.devRef .tc main_v3) = _
  simp only [hostOps1_1, hostOps1]
  read_back
  exact mid_src m ρ c

/-- At the second region's entry: the target table, untouched by the stretch between the regions. -/
theorem entry1_dst : W6 m ρ c (Proc.devRef .tc main_v6) = (edgeDst (m ((c : Thread nD τ).loc main_arg1))) := by
  show StableHlo.after hostOps1_1 (StableHlo.after hostOps1 (W4 m ρ c)) (Proc.devRef .tc main_v6) = _
  simp only [hostOps1_1, hostOps1]
  read_back
  exact mid_dst m ρ c

/-- At the second region's entry: the edges' normalisation, untouched by the stretch between the regions. -/
theorem entry1_norm : W6 m ρ c (Proc.devRef .tc main_v31) = (edgeNorm (edgeSrc (m ((c : Thread nD τ).loc main_arg1))) (edgeDst (m ((c : Thread nD τ).loc main_arg1)))) := by
  show StableHlo.after hostOps1_1 (StableHlo.after hostOps1 (W4 m ρ c)) (Proc.devRef .tc main_v31) = _
  simp only [hostOps1_1, hostOps1]
  read_back
  exact mid_norm m ρ c

/-- At the second region's entry: argument 2, untouched by the stretch between the regions. -/
theorem entry1_arg2 : W6 m ρ c (Proc.devRef .tc main_arg2) = (m ((c : Thread nD τ).loc main_arg2)) := by
  show StableHlo.after hostOps1_1 (StableHlo.after hostOps1 (W4 m ρ c)) (Proc.devRef .tc main_arg2) = _
  simp only [hostOps1_1, hostOps1]
  read_back
  exact mid_arg2 m ρ c

/-- At the second region's entry: argument 3, untouched by the stretch between the regions. -/
theorem entry1_arg3 : W6 m ρ c (Proc.devRef .tc main_arg3) = (m ((c : Thread nD τ).loc main_arg3)) := by
  show StableHlo.after hostOps1_1 (StableHlo.after hostOps1 (W4 m ρ c)) (Proc.devRef .tc main_arg3) = _
  simp only [hostOps1_1, hostOps1]
  read_back
  exact mid_arg3 m ρ c

/-- At the second region's entry: argument 6, untouched by the stretch between the regions. -/
theorem entry1_arg6 : W6 m ρ c (Proc.devRef .tc main_arg6) = (m ((c : Thread nD τ).loc main_arg6)) := by
  show StableHlo.after hostOps1_1 (StableHlo.after hostOps1 (W4 m ρ c)) (Proc.devRef .tc main_arg6) = _
  simp only [hostOps1_1, hostOps1]
  read_back
  exact mid_arg6 m ρ c

/-- At the second region's entry: argument 7, untouched by the stretch between the regions. -/
theorem entry1_arg7 : W6 m ρ c (Proc.devRef .tc main_arg7) = (m ((c : Thread nD τ).loc main_arg7)) := by
  show StableHlo.after hostOps1_1 (StableHlo.after hostOps1 (W4 m ρ c)) (Proc.devRef .tc main_arg7) = _
  simp only [hostOps1_1, hostOps1]
  read_back
  exact mid_arg7 m ρ c

/-- At the second region's entry: argument 8, untouched by the stretch between the regions. -/
theorem entry1_arg8 : W6 m ρ c (Proc.devRef .tc main_arg8) = (m ((c : Thread nD τ).loc main_arg8)) := by
  show StableHlo.after hostOps1_1 (StableHlo.after hostOps1 (W4 m ρ c)) (Proc.devRef .tc main_arg8) = _
  simp only [hostOps1_1, hostOps1]
  read_back
  exact mid_arg8 m ρ c

/-- At the second region's entry: argument 9, untouched by the stretch between the regions. -/
theorem entry1_arg9 : W6 m ρ c (Proc.devRef .tc main_arg9) = (m ((c : Thread nD τ).loc main_arg9)) := by
  show StableHlo.after hostOps1_1 (StableHlo.after hostOps1 (W4 m ρ c)) (Proc.devRef .tc main_arg9) = _
  simp only [hostOps1_1, hostOps1]
  read_back
  exact mid_arg9 m ρ c

/-! ## After the second region -/

/-- The second region leaves h · W2 in its output array, h the first layer's result. -/
theorem exit_product : W7 m ρ c (Proc.devRef .tc main_v50) = (mprod (layer1 (edgeSrc (m ((c : Thread nD τ).loc main_arg1))) (edgeDst (m ((c : Thread nD τ).loc main_arg1))) (edgeNorm (edgeSrc (m ((c : Thread nD τ).loc main_arg1))) (edgeDst (m ((c : Thread nD τ).loc main_arg1)))) (m ((c : Thread nD τ).loc main_arg5)) (mprod (m ((c : Thread nD τ).loc main_arg0)) (m ((c : Thread nD τ).loc main_arg4)))) (m ((c : Thread nD τ).loc main_arg6))) := by
  refine (W7_arr m ρ c 2).trans ((product1 (V6 m ρ) c).trans ?_)
  show mprod (W6 m ρ c (Proc.devRef .tc main_v49)) (W6 m ρ c (Proc.devRef .tc main_arg6)) = _
  rw [entry1_hidden m ρ c, entry1_arg6 m ρ c]

/-- After the second region: the source table. -/
theorem exit_src : W7 m ρ c (Proc.devRef .tc main_v3) = (edgeSrc (m ((c : Thread nD τ).loc main_arg1))) :=
  (W7_of_ne m ρ c main_v3 (by decide)).trans (entry1_src m ρ c)

/-- After the second region: the target table. -/
theorem exit_dst : W7 m ρ c (Proc.devRef .tc main_v6) = (edgeDst (m ((c : Thread nD τ).loc main_arg1))) :=
  (W7_of_ne m ρ c main_v6 (by decide)).trans (entry1_dst m ρ c)

/-- After the second region: the edges' normalisation. -/
theorem exit_norm : W7 m ρ c (Proc.devRef .tc main_v31) = (edgeNorm (edgeSrc (m ((c : Thread nD τ).loc main_arg1))) (edgeDst (m ((c : Thread nD τ).loc main_arg1)))) :=
  (W7_of_ne m ρ c main_v31 (by decide)).trans (entry1_norm m ρ c)

/-- After the second region: argument 2. -/
theorem exit_arg2 : W7 m ρ c (Proc.devRef .tc main_arg2) = (m ((c : Thread nD τ).loc main_arg2)) :=
  (W7_of_ne m ρ c main_arg2 (by decide)).trans (entry1_arg2 m ρ c)

/-- After the second region: argument 3. -/
theorem exit_arg3 : W7 m ρ c (Proc.devRef .tc main_arg3) = (m ((c : Thread nD τ).loc main_arg3)) :=
  (W7_of_ne m ρ c main_arg3 (by decide)).trans (entry1_arg3 m ρ c)

/-- After the second region: argument 7. -/
theorem exit_arg7 : W7 m ρ c (Proc.devRef .tc main_arg7) = (m ((c : Thread nD τ).loc main_arg7)) :=
  (W7_of_ne m ρ c main_arg7 (by decide)).trans (entry1_arg7 m ρ c)

/-- After the second region: argument 8. -/
theorem exit_arg8 : W7 m ρ c (Proc.devRef .tc main_arg8) = (m ((c : Thread nD τ).loc main_arg8)) :=
  (W7_of_ne m ρ c main_arg8 (by decide)).trans (entry1_arg8 m ρ c)

/-- After the second region: argument 9. -/
theorem exit_arg9 : W7 m ρ c (Proc.devRef .tc main_arg9) = (m ((c : Thread nD τ).loc main_arg9)) :=
  (W7_of_ne m ρ c main_arg9 (by decide)).trans (entry1_arg9 m ρ c)

/-! ## The result -/

set_option maxHeartbeats 40000000 in  -- one pass through the last stretch's 70 operations
/-- THE KERNEL'S RESULT: the last stretch computes the tail of the second product. -/
theorem result : W8 m ρ c (Proc.devRef .tc main_v107)
    = tail (edgeSrc (m ((c : Thread nD τ).loc main_arg1))) (edgeDst (m ((c : Thread nD τ).loc main_arg1))) (edgeNorm (edgeSrc (m ((c : Thread nD τ).loc main_arg1))) (edgeDst (m ((c : Thread nD τ).loc main_arg1)))) (m ((c : Thread nD τ).loc main_arg2)) (m ((c : Thread nD τ).loc main_arg3)) (m ((c : Thread nD τ).loc main_arg7)) (m ((c : Thread nD τ).loc main_arg8)) (m ((c : Thread nD τ).loc main_arg9)) (mprod (layer1 (edgeSrc (m ((c : Thread nD τ).loc main_arg1))) (edgeDst (m ((c : Thread nD τ).loc main_arg1))) (edgeNorm (edgeSrc (m ((c : Thread nD τ).loc main_arg1))) (edgeDst (m ((c : Thread nD τ).loc main_arg1)))) (m ((c : Thread nD τ).loc main_arg5)) (mprod (m ((c : Thread nD τ).loc main_arg0)) (m ((c : Thread nD τ).loc main_arg4)))) (m ((c : Thread nD τ).loc main_arg6))) := by
  show StableHlo.after hostOps2 (W7 m ρ c) (Proc.devRef .tc main_v107) = _
  simp only [hostOps2]
  read_back
  rw [exit_src m ρ c, exit_dst m ρ c, exit_norm m ρ c, exit_arg2 m ρ c, exit_arg3 m ρ c, exit_arg7 m ρ c, exit_arg8 m ρ c,
    exit_arg9 m ρ c, exit_product m ρ c]
  rfl

end Cert.KernelIdeal.Fold

end
-- ==== Proof.RefResult.lean ====
/-
  The reference program's result, read at the shared host stages.

  The reference is one line of host operations; its run ends with the result buffer at the operations' composed term of
  the argument arrays.  That term is the stages' composition: the edge tables and the normalisation of argument 1, the
  first layer of the host's contraction x · W1, the tail of the host's contraction h · W2 — the reference computes the
  normalisation a second time for its second layer, from the same tables, which is the same term again.  The host's two
  weight contractions are plain [n, k] × [k, d] contractions, hence the matrix products (module LibMatrixProduct); the rest
  agrees operation by operation with the stage functions, whose dimension records are the reference's own by unfolding.
-/
import proofs.«152697_j43430709297955_1_alg».proof.Proof.RefRunPatched
import proofs.«152697_j43430709297955_1_alg».proof.Proof.Stages
import proofs.«152697_j43430709297955_1_alg».proof.Proof.LibMatrixProduct

set_option maxRecDepth 16384

noncomputable section

namespace Cert.ReferenceIdeal.RefResult

open Idealize.ShloMosaic Idealize.ShloMosaic.TcCoe Idealize.SL.Sem
open Cert.ReferenceIdeal Cert.KernelIdeal.Stages Cert.LibMatrixProduct

/-- THE REFERENCE'S RESULT: the tail of (layer 1 of x · W1) · W2, over the stage functions of argument 1. -/
theorem result (m : (ℓ : Loc nD τ sig) → Buf (Elt Ideal) ℓ) (c : Dev nD) :
    Cert.ReferenceIdeal.ValueP.res_main_v122 (F := Ideal) m c
      = tail (edgeSrc (m ((c.tc : Thread nD τ).loc main_arg1))) (edgeDst (m ((c.tc : Thread nD τ).loc main_arg1))) (edgeNorm (edgeSrc (m ((c.tc : Thread nD τ).loc main_arg1))) (edgeDst (m ((c.tc : Thread nD τ).loc main_arg1)))) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (mprod (layer1 (edgeSrc (m ((c.tc : Thread nD τ).loc main_arg1))) (edgeDst (m ((c.tc : Thread nD τ).loc main_arg1))) (edgeNorm (edgeSrc (m ((c.tc : Thread nD τ).loc main_arg1))) (edgeDst (m ((c.tc : Thread nD τ).loc main_arg1)))) (m ((c.tc : Thread nD τ).loc main_arg5)) (mprod (m ((c.tc : Thread nD τ).loc main_arg0)) (m ((c.tc : Thread nD τ).loc main_arg4)))) (m ((c.tc : Thread nD τ).loc main_arg6))) := by
  unfold Cert.ReferenceIdeal.ValueP.res_main_v122
  rw [dotGeneral_eq_mprod dot_S128000x256_S256x128_S128000x128_1_0_0_1_n_n rfl rfl rfl rfl rfl rfl none,
    dotGeneral_eq_mprod dot_S128000x256_S256x256_S128000x256_1_0_0_1_n_n rfl rfl rfl rfl rfl rfl none]
  rfl

end Cert.ReferenceIdeal.RefResult

end
-- ==== Proof.lean ====
/-
  The proof of `Cert.Claim`: a two-layer graph convolution with mean pooling and a pair classifier, whose two weight
  multiplications run as matrix-unit kernels, against the same pipeline with host contractions.

  Both programs compute, from the node features x, the edge list, the image of each node, the pairs and the weights,

      sigmoid ( [ img[pairs[:,0]], img[pairs[:,1]] ] · fcW + fcb ),   img = per-image mean of  A·(relu(A·(x·W1) + b1)·W2) + b2,

  where A is the normalised adjacency applied by gathering rows at the edges' sources, scaling and adding them up at
  the targets.  The kernel program multiplies by W1 and by W2 in blocks of 4000 rows on the matrix unit, after changing
  the operands to a narrower float format, and accumulates into a zero splat; the reference uses the host's contraction.
  On the extended reals a change of format is the identity and both multiplications are the exact matrix product, so
  the two results are one term: the shared host stages (module Stages) around two products (module LibMatrixProduct).  No law
  beyond "the matrix unit's result into a zero accumulator, and the host's contraction, are the sum over the contracted
  index" is used, so the precondition (finite inputs) is never opened.

    - Products:   each region leaves the whole product in its output array (blocks of rows, covering the array);
    - KernelRun:  the kernel program's run, ending with the result buffer at the last segment boundary's contents;
    - Fold:       those contents, read back through the segments: tail (… (layer1 (x·W1)) · W2);
    - RefResult:  the reference's result term is the same composition;
    - here:       the three frames, the (empty) list of idealization steps, and the equality of the results.
-/
import proofs.«152697_j43430709297955_1_alg».proof.Defs
import proofs.«152697_j43430709297955_1_alg».proof.Proof.Gen.Kernel
import proofs.«152697_j43430709297955_1_alg».proof.Proof.Gen.Kernel.Skeleton
import proofs.«152697_j43430709297955_1_alg».proof.Proof.Gen.Kernel.Launch
import proofs.«152697_j43430709297955_1_alg».proof.Proof.Gen.Kernel.Points
import proofs.«152697_j43430709297955_1_alg».proof.Proof.Gen.Kernel.Frame
import proofs.«152697_j43430709297955_1_alg».proof.Proof.Gen.KernelIdeal
import proofs.«152697_j43430709297955_1_alg».proof.Proof.Gen.KernelIdeal.Skeleton
import proofs.«152697_j43430709297955_1_alg».proof.Proof.Gen.KernelIdeal.Launch
import proofs.«152697_j43430709297955_1_alg».proof.Proof.Gen.KernelIdeal.Points
import proofs.«152697_j43430709297955_1_alg».proof.Proof.Gen.KernelIdeal.Frame
import proofs.«152697_j43430709297955_1_alg».proof.Proof.Gen.ReferenceIdeal
import proofs.«152697_j43430709297955_1_alg».proof.Proof.Gen.Pre_finite_inputs
import proofs.«152697_j43430709297955_1_alg».proof.Proof.RefRunPatched
import proofs.«152697_j43430709297955_1_alg».proof.Proof.KernelRun
import proofs.«152697_j43430709297955_1_alg».proof.Proof.Fold
import proofs.«152697_j43430709297955_1_alg».proof.Proof.RefResult
import Idealize.ShloMosaic.Adequacy
import Idealize.ShloMosaic.Init

noncomputable section

namespace Cert.Proof

open Idealize.ShloMosaic Idealize.ShloMosaic.TcCoe Idealize.SL.Sem

/-- The kernel program as printed runs and leaves its arguments alone: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is one line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealized kernel is the printed kernel's own text read on the extended reals: no operation was rewritten. -/
theorem preserves : Cert.preserves_Kernel_KernelIdeal := trivial

/-- From memories that agree on the arguments both programs end with the same result: the kernel's is the tail of
    (layer 1 of x · W1) · W2 over the stage functions of its arguments (Fold.result), the reference's the same term of its
    own arguments (RefResult.result), and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ResultRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.RefResult.result, Cert.KernelIdeal.Fold.result, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
